-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S8x16x4096 : Shape := ⟨3, ![8, 16, 4096]⟩
abbrev S8x4096x16 : Shape := ⟨3, ![8, 4096, 16]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S8x4096x16 : S_.BroadcastsInDim S8x4096x16 (![] : Fin 0 → Fin S8x4096x16.rank)
  reducesTo_S8x4096x16_S_d0_1_2 : S8x4096x16.ReducesTo [0, 1, 2] S_

variable [Facts]

def fn_part1 {F : FTy → Type} [FloatOps F] (main_v13 : IVec S_ 1) (main_v16 : IVec S8x4096x16 1) : IVec S_ 1 :=
  let main_c_5 : IVec S_ 1 := constantI S_ 1 1#1
  let main_v17 : IVec S_ 1 := (fun x v => Host.reduce IntOp.andi x v reducesTo_S8x4096x16_S_d0_1_2 h_S_) main_v16 main_c_5
  let main_v18 : IVec S_ 1 := andi main_v13 main_v17
  main_v18

def fn {F : FTy → Type} [FloatOps F] (main_arg0 : FVec F S16384x4096 .f32) (main_arg1 : FVec F S4096x4096 .f32) (main_arg2 : FVec F S8x16x4096 .f32) (main_arg3 : FVec F S8x4096x16 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x16x4096 .f32 := Host.absf main_arg2
  let main_cst_2 : FVec F S_ .f32 := constant S_ .f32 0x7F800000#32
  let main_v10 : FVec F S8x16x4096 .f32 := broadcastInDim S8x16x4096 ![] bcast_S_S8x16x4096 main_cst_2
  let main_v11 : IVec S8x16x4096 1 := cmpf .olt main_v9 main_v10
  let main_c_3 : IVec S_ 1 := constantI S_ 1 1#1
  let main_v12 : IVec S_ 1 := (fun x v => Host.reduce IntOp.andi x v reducesTo_S8x16x4096_S_d0_1_2 h_S_) main_v11 main_c_3
  let main_v13 : IVec S_ 1 := andi main_v8 main_v12
  let main_v14 : FVec F S8x4096x16 .f32 := Host.absf main_arg3
  let main_cst_4 : FVec F S_ .f32 := constant S_ .f32 0x7F800000#32
  let main_v15 : FVec F S8x4096x16 .f32 := broadcastInDim S8x4096x16 ![] bcast_S_S8x4096x16 main_cst_4
  let main_v16 : IVec S8x4096x16 1 := cmpf .olt main_v14 main_v15
  fn_part1 (F := F) main_v13 main_v16
-- ==== Kernel.lean ====
abbrev S16384x4096 : Shape := ⟨2, ![16384, 4096]⟩
abbrev S4096x4096 : Shape := ⟨2, ![4096, 4096]⟩
abbrev S8x16x4096 : Shape := ⟨3, ![8, 16, 4096]⟩
abbrev S8x4096x16 : Shape := ⟨3, ![8, 4096, 16]⟩
abbrev S1x16x4096 : Shape := ⟨3, ![1, 16, 4096]⟩
abbrev S16x4096 : Shape := ⟨2, ![16, 4096]⟩
abbrev S1x4096x16 : Shape := ⟨3, ![1, 4096, 16]⟩
abbrev S4096x16 : Shape := ⟨2, ![4096, 16]⟩
abbrev S1024x1024 : Shape := ⟨2, ![1024, 1024]⟩
abbrev S1024x16 : Shape := ⟨2, ![1024, 16]⟩
abbrev S16x1024 : Shape := ⟨2, ![16, 1024]⟩
abbrev S1024x2048 : Shape := ⟨2, ![1024, 2048]⟩
abbrev S2048x2048 : Shape := ⟨2, ![2048, 2048]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S8x16x4096, .f32⟩
  | .hbm, ⟨3, _⟩ => ⟨S8x4096x16, .f32⟩
  | .hbm, ⟨4, _⟩ => ⟨S1x16x4096, .f32⟩
  | .hbm, ⟨5, _⟩ => ⟨S16x4096, .f32⟩
  | .hbm, ⟨6, _⟩ => ⟨S1x4096x16, .f32⟩
  | .hbm, ⟨7, _⟩ => ⟨S4096x16, .f32⟩
  | .hbm, ⟨8, _⟩ => ⟨S4096x4096, .bf16⟩
  | .hbm, ⟨9, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .f32⟩
  | .local _ .vmem, ⟨9, _⟩ => ⟨S1024x2048, .f32⟩
  | .local _ .vmem, ⟨10, _⟩ => ⟨S2048x2048, .bf16⟩
  | .local _ .vmem, ⟨11, _⟩ => ⟨S2048x2048, .bf16⟩
  | .local _ .vmem, ⟨12, _⟩ => ⟨S1024x2048, .f32⟩
  | .local _ .vmem, ⟨13, _⟩ => ⟨S1024x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 2, 2], ![false, false, false]⟩

def k1_cond1 (i : grid1.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg2 : BitVec 32 := BitVec.ofNat 32 (i 2).val
  let c0_i32_1 : BitVec 32 := 0#32
  let v3 : BitVec 1 := Scalar.cmpi .ne arg2 c0_i32_1
  let v4 : BitVec 32 := Scalar.extui v3
  let c0_i32_2 : BitVec 32 := 0#32
  let v5 : BitVec 1 := Scalar.cmpi .ne v4 c0_i32_2
  v5

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  slices_S8x16x4096_S1x16x4096_0_0_0 : S8x16x4096.Slices ![0, 0, 0] S1x16x4096
  shapeCasts_S1x16x4096_S16x4096 : S1x16x4096.ShapeCasts S16x4096
  slices_S8x4096x16_S1x4096x16_0_0_0 : S8x4096x16.Slices ![0, 0, 0] S1x4096x16
  shapeCasts_S1x4096x16_S4096x16 : S1x4096x16.ShapeCasts S4096x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S1024x2048_S1024x2048 : S1024x2048.ShapeCasts S1024x2048
  dot_S1024x16_S16x1024_S1024x1024_1_0_0_1_n_n_wf : DotDims.WF S1024x16 S16x1024 S1024x1024 [1] [0] [0] [1] [] []
  dot_S1024x2048_S2048x2048_S1024x2048_1_1_0_0_n_n_wf : DotDims.WF S1024x2048 S2048x2048 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x4096.size a
  hwx1_0 : ∀ i : grid1.Coords, EltTy.bits .f32 = 32 ∨ (Rect.block (s := S16384x4096) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S4096x4096.size a
  hwx1_1 : ∀ i : grid1.Coords, EltTy.bits .bf16 = 32 ∨ (Rect.block (s := S4096x4096) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S16384x4096.size a
  hwx1_2 : ∀ i : grid1.Coords, EltTy.bits .f32 = 32 ∨ (Rect.block (s := S16384x4096) S1024x2048.size (cc1_transform_2 i) (hinb1_2 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S8x16x4096 : Shape := ⟨3, ![8, 16, 4096]⟩
abbrev S8x4096x16 : Shape := ⟨3, ![8, 4096, 16]⟩
abbrev S1x16x4096 : Shape := ⟨3, ![1, 16, 4096]⟩
abbrev S16x4096 : Shape := ⟨2, ![16, 4096]⟩
abbrev S1x4096x16 : Shape := ⟨3, ![1, 4096, 16]⟩
abbrev S4096x16 : Shape := ⟨2, ![4096, 16]⟩
abbrev S16384x16 : Shape := ⟨2, ![16384, 16]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S8x16x4096, .f32⟩
  | .hbm, ⟨3, _⟩ => ⟨S8x4096x16, .f32⟩
  | .hbm, ⟨4, _⟩ => ⟨S4096x4096, .f32⟩
  | .hbm, ⟨5, _⟩ => ⟨S16384x4096, .f32⟩
  | .hbm, ⟨6, _⟩ => ⟨S1x16x4096, .f32⟩
  | .hbm, ⟨7, _⟩ => ⟨S16x4096, .f32⟩
  | .hbm, ⟨8, _⟩ => ⟨S1x4096x16, .f32⟩
  | .hbm, ⟨9, _⟩ => ⟨S4096x16, .f32⟩
  | .hbm, ⟨10, _⟩ => ⟨S4096x16, .f32⟩
  | .hbm, ⟨11, _⟩ => ⟨S16384x16, .f32⟩
  | .hbm, ⟨12, _⟩ => ⟨S16x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S4096x4096_S4096x4096_1_0 : S4096x4096.Transposes [1, 0] S4096x4096
  slices_S8x16x4096_S1x16x4096_0_0_0 : S8x16x4096.Slices ![0, 0, 0] S1x16x4096
  shapeCasts_S1x16x4096_S16x4096 : S1x16x4096.ShapeCasts S16x4096
  slices_S8x4096x16_S1x4096x16_0_0_0 : S8x4096x16.Slices ![0, 0, 0] S1x4096x16
  shapeCasts_S1x4096x16_S4096x16 : S1x4096x16.ShapeCasts S4096x16
  transposes_S16x4096_S4096x16_1_0 : S16x4096.Transposes [1, 0] S4096x16
  transposes_S4096x16_S16x4096_1_0 : S4096x16.Transposes [1, 0] S16x4096
  bcast_S_S16384x4096 : S_.BroadcastsInDim S16384x4096 (![] : Fin 0 → Fin S16384x4096.rank)
  dot_S16384x4096_S4096x4096_S16384x4096_1_0_0_1_n_n_wf : DotDims.WF S16384x4096 S4096x4096 S16384x4096 [1] [0] [0] [1] [] []
  dot_S16384x4096_S4096x16_S16384x16_1_0_0_1_n_n_wf : DotDims.WF S16384x4096 S4096x16 S16384x16 [1] [0] [0] [1] [] []
  dot_S16384x16_S16x4096_S16384x4096_1_0_0_1_n_n_wf : DotDims.WF S16384x16 S16x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x16_S16384x16_1_0_0_1_n_n : DotDims S16384x4096 S4096x16 S16384x16 where
  lhsContracting := [1]
  rhsContracting := [0]
  lhsNonContracting := [0]
  rhsNonContracting := [1]
  lhsBatch := []
  rhsBatch := []
  wf := dot_S16384x4096_S4096x16_S16384x16_1_0_0_1_n_n_wf
def dot_S16384x16_S16x4096_S16384x4096_1_0_0_1_n_n : DotDims S16384x16 S16x4096 S16384x4096 where
  lhsContracting := [1]
  rhsContracting := [0]
  lhsNonContracting := [0]
  rhsNonContracting := [1]
  lhsBatch := []
  rhsBatch := []
  wf := dot_S16384x16_S16x4096_S16384x4096_1_0_0_1_n_n_wf

class Facts : Prop extends Facts₀ where

variable [Facts]
-- ==== Proof.FoldB.lean ====
/-
  The weight-folding pass of the program, as a pipeline over a 4 × 4 grid of 1024 × 1024 tiles, at any float instance.

  At grid point (j, k) the pass reads tile (j, k) of the base weight `W`, the 1024 rows `j` of the low-rank factor
  `B0` (1024 × 16) and the 1024 columns `k` of the factor `A0` (16 × 1024), and writes tile (j, k) of the folded weight:
  the narrowing of `W + 1·(B0·A0)`. Stated here: what the tile's staging buffer holds after the body as one function
  `foldOut` of the three blocks read (the single store, which covers the tile), that the body run on whole staging
  buffers leaves exactly that, the pipeline's proof data (every input buffer holds its block at every point, fetched
  there or kept from the point before; nothing owed; full shares), and the body obligation at every point.
  Everything is stated at a parameter `V`: the buffer contents when the pass is entered.
-/
import proofs.«128359_g11295763988856_week1_w4_63_30_alg».proof.Proof.Gen.Kernel.Launch
import proofs.«128359_g11295763988856_week1_w4_63_30_alg».proof.Proof.Gen.Kernel.Skeleton
import proofs.«128359_g11295763988856_week1_w4_63_30_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def foldBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index did not move since the point before: for any proof data whose array is `V`'s and whose body leaves
    the block in place. Window 0 (the tile of `W`). -/
theorem foldBefore0_of {c : Dev nD} (dat : Dat τ (Elt F) Unit ℕ (UR sig nD τ) ℕ cfg0 c) (hA : dat.A 0 = V c (Pipeline.arrRef spec0 0))
    (hafter : ∀ t, dat.after 0 t = foldBlk V c 0 t) (t : Fin cfg0.N) (d) : dat.before 0 t d = foldBlk V c 0 t :=
  (dat.before_in_eq_fetched 0 rfl (fun _ => rfl) (fun _ _ _ => rfl) (fun t => by rw [hafter]; unfold Dat.blockOf foldBlk; rw [hA]; try rfl) t d).trans
    (by unfold Dat.fetched Dat.blockOf foldBlk; rw [hA]; try rfl)
/-- Window 1 (the rows of `B0`; its index moves only with `j`). -/
theorem foldBefore1_of {c : Dev nD} (dat : Dat τ (Elt F) Unit ℕ (UR sig nD τ) ℕ cfg0 c) (hA : dat.A 1 = V c (Pipeline.arrRef spec0 1))
    (hafter : ∀ t, dat.after 1 t = foldBlk V c 1 t) (t : Fin cfg0.N) (d) : dat.before 1 t d = foldBlk V c 1 t :=
  (dat.before_in_eq_fetched 1 rfl (fun _ => rfl) (fun _ _ _ => rfl) (fun t => by rw [hafter]; unfold Dat.blockOf foldBlk; rw [hA]; try rfl) t d).trans
    (by unfold Dat.fetched Dat.blockOf foldBlk; rw [hA]; try rfl)
/-- Window 2 (the columns of `A0`). -/
theorem foldBefore2_of {c : Dev nD} (dat : Dat τ (Elt F) Unit ℕ (UR sig nD τ) ℕ cfg0 c) (hA : dat.A 2 = V c (Pipeline.arrRef spec0 2))
    (hafter : ∀ t, dat.after 2 t = foldBlk V c 2 t) (t : Fin cfg0.N) (d) : dat.before 2 t d = foldBlk V c 2 t :=
  (dat.before_in_eq_fetched 2 rfl (fun _ => rfl) (fun _ _ _ => rfl) (fun t => by rw [hafter]; unfold Dat.blockOf foldBlk; rw [hA]; try rfl) t d).trans
    (by unfold Dat.fetched Dat.blockOf foldBlk; rw [hA]; try rfl)

/-! ## The body's accesses: each buffer whole -/

abbrev rTile : Rect S1024x1024 := Rect.unit (s := S1024x1024) ![0, 0] S1024x1024.size inb_S1024x1024_S1024x1024_0_0
abbrev rRows : Rect S1024x16 := Rect.unit (s := S1024x16) ![0, 0] S1024x16.size inb_S1024x16_S1024x16_0_0
abbrev rCols : Rect S16x1024 := Rect.unit (s := S16x1024) ![0, 0] S16x1024.size inb_S16x1024_S16x1024_0_0

/-- What the body leaves in the output tile's staging buffer, from the three blocks read (`x0` the tile of `W`,
    `x1` the rows of `B0`, `x2` the columns of `A0`): its one store, of the narrowed `W + 1·(B0·A0)`. -/
def foldOut (x0 : Vec F S1024x1024 .f32) (x1 : Vec F S1024x16 .f32) (x2 : Vec F S16x1024 .f32) : Vec F S1024x1024 .bf16 :=
  View.canon [⟨rTile, k0_pay1 (View.ld x1 rRows) (View.ld x2 rCols) (View.ld x0 rTile)⟩]

/-- The store is of the whole tile, so it covers the buffer. -/
theorem foldCover (p0 : Vec F S1024x1024 .bf16) (y : S1024x1024.Idx) :
    ∃ pc ∈ ([⟨rTile, p0⟩] : List (View.Piece (Elt F) S1024x1024 .bf16)), y ∈ pc.1.set :=
  View.cover_of_tiled [⟨rTile, p0⟩] S1024x1024.size (by rfl) y

/-! ## The body's run -/

set_option maxHeartbeats 1000000 in
/-- The body on whole staging buffers, the inputs' at contents `x0 x1 x2` and the output's at anything, runs to the
    continuation with the inputs' as they were and the output's at `foldOut` of them. -/
theorem foldKernel (c : Dev nD) (E : Set ℕ) (i : grid0.Coords) (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (foldOut x0 x1 x2)) -∗ K ⟨⟩))
      ⊢ wp frame (wpE (defs₀ (F := F)) Variants.none c none) E (cc0__fold_kernel i arg2 harg2 arg3 harg3 arg4 harg4 arg5 harg5) K := by
  simp only [cc0__fold_kernel_eq_skeleton]; unfold cc0__fold_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (foldCover _)

/-! ## The pipeline's proof data -/

/-- The proof data of the folding pass on core `c`: the arrays as the pass finds them; after the body at point `t`
    each input's buffer at its block and the output's at `foldOut` of the three; the invariant the scoped rest and the
    generator register, untouched; nothing owed; full shares. -/
def foldDat (c : Dev nD) : Dat τ (Elt F) Unit ℕ (UR sig nD τ) ℕ cfg0 c where
  A w := V c (Pipeline.arrRef spec0 w)
  after w t := match w with
    | ⟨0, _⟩ => foldBlk V c 0 t
    | ⟨1, _⟩ => foldBlk V c 1 t
    | ⟨2, _⟩ => foldBlk V c 2 t
    | ⟨3, _⟩ => foldOut (foldBlk V c 0 t) (foldBlk V c 1 t) (foldBlk V c 2 t)
  Φ _ := Pipeline.ΦA spec0 c
  q _ := fullShare
  owed _ := 0

theorem foldA_eq (c : Dev nD) (w : Fin cfg0.W) : (foldDat V c).A w = V c (Pipeline.arrRef spec0 w) := by
  dsimp only [foldDat]

theorem foldAfter0 (c : Dev nD) (t : Fin cfg0.N) : (foldDat V c).after 0 t = foldBlk V c 0 t := by dsimp only [foldDat]
theorem foldAfter1 (c : Dev nD) (t : Fin cfg0.N) : (foldDat V c).after 1 t = foldBlk V c 1 t := by dsimp only [foldDat]
theorem foldAfter2 (c : Dev nD) (t : Fin cfg0.N) : (foldDat V c).after 2 t = foldBlk V c 2 t := by dsimp only [foldDat]
theorem foldAfter3 (c : Dev nD) (t : Fin cfg0.N) :
    (foldDat V c).after 3 t = foldOut (foldBlk V c 0 t) (foldBlk V c 1 t) (foldBlk V c 2 t) := by dsimp only [foldDat]

theorem foldBefore0 (c : Dev nD) (t : Fin cfg0.N) (d) : (foldDat V c).before 0 t d = foldBlk V c 0 t :=
  foldBefore0_of V (foldDat V c) (foldA_eq V c 0) (foldAfter0 V c) t d
theorem foldBefore1 (c : Dev nD) (t : Fin cfg0.N) (d) : (foldDat V c).before 1 t d = foldBlk V c 1 t :=
  foldBefore1_of V (foldDat V c) (foldA_eq V c 1) (foldAfter1 V c) t d
theorem foldBefore2 (c : Dev nD) (t : Fin cfg0.N) (d) : (foldDat V c).before 2 t d = foldBlk V c 2 t :=
  foldBefore2_of V (foldDat V c) (foldA_eq V c 2) (foldAfter2 V c) t d

/-! ## The body obligation -/

/-- What the body is called with at point `t`, the windows one by one, -/
def foldPre (c : Dev nD) (t : Fin cfg0.N) : sProp 𝕄 :=
  iprop((foldDat V c).Φ t.castSucc ∗ (foldDat V c).owesAt () t.castSucc
    ∗ (∃ d, owns (c : Thread nD τ) (st0_0 t) fullShare ((foldDat V c).before 0 t d))
    ∗ (∃ d, owns (c : Thread nD τ) (st0_1 t) fullShare ((foldDat V c).before 1 t d))
    ∗ (∃ d, owns (c : Thread nD τ) (st0_2 t) fullShare ((foldDat V c).before 2 t d))
    ∗ (∃ d, owns (c : Thread nD τ) (st0_3 t) fullShare ((foldDat V c).before 3 t d)))

/-- and what it returns. -/
def foldPost (c : Dev nD) (t : Fin cfg0.N) : sProp 𝕄 :=
  iprop((foldDat V c).Φ t.succ ∗ (foldDat V c).owesAt () t.succ
    ∗ owns (c : Thread nD τ) (st0_0 t) fullShare ((foldDat V c).after 0 t)
    ∗ owns (c : Thread nD τ) (st0_1 t) fullShare ((foldDat V c).after 1 t)
    ∗ owns (c : Thread nD τ) (st0_2 t) fullShare ((foldDat V c).after 2 t)
    ∗ owns (c : Thread nD τ) (st0_3 t) fullShare ((foldDat V c).after 3 t))

/-- The body at any point: the inputs' buffers hold their blocks, so the body's run applies; the invariant and the
    core's dues pass through unread. -/
theorem foldBody (c : Dev nD) (t : Fin cfg0.N) :
    foldPre V c t ⊢ wp frame (wpE (defs₀ (F := F)) Variants.none c none) Set.univ (bodyAt0 t) (fun _ => foldPost V c t) := by
  unfold foldPre foldPost bodyAt0
  simp only [foldBefore0, foldBefore1, foldBefore2]
  rw [show (foldDat V c).Φ t.succ = (foldDat V c).Φ t.castSucc from rfl,
    show (foldDat V c).owesAt () t.succ = (foldDat V c).owesAt () t.castSucc from rfl,
    foldAfter0, foldAfter1, foldAfter2, foldAfter3]
  iintro ⟨HΦ, Ho, ⟨%d0, H0⟩, ⟨%d1, H1⟩, ⟨%d2, H2⟩, ⟨%d3, H3⟩⟩
  iapply (foldKernel c Set.univ _ _ _ _ _ _ _ _ _ (foldBlk V c 0 t) (foldBlk V c 1 t) (foldBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the folding pass, at every point. -/
theorem foldObligation (c : Dev nD) : BodyObligation (foldDat (F := F) V c) (defs₀ (F := F)) Variants.none () Set.univ := fun t => by
  rw [bigSep_W0, bigSep_W0]
  exact foldBody V c t

end Cert.Kernel.Fr

end
-- ==== Proof.MmB.lean ====
/-
  The blocked product of the program, as a pipeline over a 16 × 2 × 2 grid, at any float instance.

  At grid point (i, j, k) — `k` innermost — the pass reads the 1024 × 2048 tile (i, k) of `x` and the 2048 × 2048 tile
  (j, k) of the folded weight, and works on the 1024 × 2048 tile (i, j) of the result, whose staging buffer stays in
  place while `k` runs: at `k = 0` it STORES the tile product `x(i,k) · w(j,k)ᵀ`; at `k ≠ 0` it ADDS the tile product to
  what the buffer holds. The buffer is written back after the last `k`. Stated here: the two cases' stores as functions
  of the blocks read (`mmFirst`, `mmNext`), the body's run in each case, what the result tile's buffer holds point by
  point (`mmAcc`: the recursion over the points, restarted at every even point), the pipeline's proof data and the body
  obligation. The result window is live at every point (one of the two cases always applies).
  Everything is stated at a parameter `V`: the buffer contents when the pass is entered.
-/
import proofs.«128359_g11295763988856_week1_w4_63_30_alg».proof.Proof.Gen.Kernel.Launch
import proofs.«128359_g11295763988856_week1_w4_63_30_alg».proof.Proof.Gen.Kernel.Skeleton
import proofs.«128359_g11295763988856_week1_w4_63_30_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def mmBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. Window 0 (the tile of `x`). -/
theorem mmBefore0_of {c : Dev nD} (dat : Dat τ (Elt F) Unit ℕ (UR sig nD τ) ℕ cfg1 c) (hA : dat.A 0 = V c (Pipeline.arrRef spec1 0))
    (hafter : ∀ t, dat.after 0 t = mmBlk V c 0 t) (t : Fin cfg1.N) (d) : dat.before 0 t d = mmBlk V c 0 t :=
  (dat.before_in_eq_fetched 0 rfl (fun _ => rfl) (fun _ _ _ => rfl) (fun t => by rw [hafter]; unfold Dat.blockOf mmBlk; rw [hA]; try rfl) t d).trans
    (by unfold Dat.fetched Dat.blockOf mmBlk; rw [hA]; try rfl)
/-- Window 1 (the tile of the folded weight). -/
theorem mmBefore1_of {c : Dev nD} (dat : Dat τ (Elt F) Unit ℕ (UR sig nD τ) ℕ cfg1 c) (hA : dat.A 1 = V c (Pipeline.arrRef spec1 1))
    (hafter : ∀ t, dat.after 1 t = mmBlk V c 1 t) (t : Fin cfg1.N) (d) : dat.before 1 t d = mmBlk V c 1 t :=
  (dat.before_in_eq_fetched 1 rfl (fun _ => rfl) (fun _ _ _ => rfl) (fun t => by rw [hafter]; unfold Dat.blockOf mmBlk; rw [hA]; try rfl) t d).trans
    (by unfold Dat.fetched Dat.blockOf mmBlk; rw [hA]; try rfl)

/-! ## The body's accesses: each buffer whole -/

abbrev rRes : Rect S1024x2048 := Rect.unit (s := S1024x2048) ![0, 0] S1024x2048.size inb_S1024x2048_S1024x2048_0_0
abbrev rWgt : Rect S2048x2048 := Rect.unit (s := S2048x2048) ![0, 0] S2048x2048.size inb_S2048x2048_S2048x2048_0_0

/-- At `k = 0`: the result tile's buffer is stored the tile product of `x0` (the tile of `x`) and `x1` (the tile of the
    folded weight). -/
def mmFirst (x0 : Vec F S1024x2048 .f32) (x1 : Vec F S2048x2048 .bf16) : Vec F S1024x2048 .f32 :=
  View.canon [⟨rRes, k1_pay1 (View.ld x0 rRes) (View.ld x1 rWgt)⟩]

/-- At `k ≠ 0`: the buffer, holding `xo`, is stored `xo` plus the tile product. -/
def mmNext (x0 : Vec F S1024x2048 .f32) (x1 : Vec F S2048x2048 .bf16) (xo : Vec F S1024x2048 .f32) : Vec F S1024x2048 .f32 :=
  View.canon [⟨rRes, k1_pay2 (View.ld xo rRes) (View.ld x0 rRes) (View.ld x1 rWgt)⟩]

/-- Either store is of the whole tile, so it covers the buffer. -/
theorem mmCover (p0 : Vec F S1024x2048 .f32) (y : S1024x2048.Idx) :
    ∃ pc ∈ ([⟨rRes, p0⟩] : List (View.Piece (Elt F) S1024x2048 .f32)), y ∈ pc.1.set :=
  View.cover_of_tiled [⟨rRes, p0⟩] S1024x2048.size (by rfl) y

/-! ## Which case a point is in, and that the result window is never idle -/

/-- The first branch is taken exactly at the even points (`k = 0`). -/
theorem mmCondFirst : ∀ t : Fin cfg1.N, k1_cond1 (grid1.coords t) = 1#1 ↔ t.val % 2 = 0 :=
  (by decide +kernel : ∀ t : Fin grid1.N, k1_cond1 (grid1.coords t) = 1#1 ↔ t.val % 2 = 0)
/-- The second branch is taken exactly at the odd points (`k = 1`). -/
theorem mmCondNext : ∀ t : Fin cfg1.N, k1_cond2 (grid1.coords t) = 1#1 ↔ t.val % 2 = 1 :=
  (by decide +kernel : ∀ t : Fin grid1.N, k1_cond2 (grid1.coords t) = 1#1 ↔ t.val % 2 = 1)

/-- At every coordinate one of the two branches is taken (`k` is 0 or 1): the result window is idle nowhere. -/
theorem mmLive : ∀ i : grid1.Coords, cfg1.idle 2 i = false := by
  intro i
  have h2 : (i 2).val < 2 := (i 2).isLt
  show (!(k1_cond1 i == 1#1) && !(k1_cond2 i == 1#1)) = false
  unfold k1_cond1 k1_cond2
  rcases (by omega : (i 2).val = 0 ∨ (i 2).val = 1) with h | h <;> rw [h] <;> decide

/-! ## The body's run, case by case -/

set_option maxHeartbeats 1000000 in
/-- `k = 0`: on whole staging buffers, the inputs' at `x0 x1` and the result's at anything, the body runs to the
    continuation with the inputs' as they were and the result's at `mmFirst x0 x1`. -/
theorem mmKernelFirst (c : Dev nD) (E : Set ℕ) (i : grid1.Coords) (arg3 : Memref sig .tc .vmem S1024x2048 .f32) (harg3 : arg3.IsWhole) (arg4 : Memref sig .tc .vmem S2048x2048 .bf16) (harg4 : arg4.IsWhole)
    (arg5 : Memref sig .tc .vmem S1024x2048 .f32) (harg5 : arg5.IsWhole) (h1 : k1_cond1 i = 1#1) (h2 : ¬k1_cond2 i = 1#1)
    (x0 : Vec F S1024x2048 .f32) (x1 : Vec F S2048x2048 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (mmFirst x0 x1)) -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mmCover _)

set_option maxHeartbeats 1000000 in
/-- `k ≠ 0`: on whole staging buffers, the inputs' at `x0 x1` and the result's at `xo`, the body runs to the
    continuation with the inputs' as they were and the result's at `mmNext x0 x1 xo`. -/
theorem mmKernelNext (c : Dev nD) (E : Set ℕ) (i : grid1.Coords) (arg3 : Memref sig .tc .vmem S1024x2048 .f32) (harg3 : arg3.IsWhole) (arg4 : Memref sig .tc .vmem S2048x2048 .bf16) (harg4 : arg4.IsWhole)
    (arg5 : Memref sig .tc .vmem S1024x2048 .f32) (harg5 : arg5.IsWhole) (h1 : ¬k1_cond1 i = 1#1) (h2 : k1_cond2 i = 1#1)
    (x0 : Vec F S1024x2048 .f32) (x1 : Vec F S2048x2048 .bf16) (xo : Vec F S1024x2048 .f32) (K : PUnit → sProp 𝕄) :
    iprop(owns (c : Thread nD τ) arg3 fullShare x0 ∗ owns (c : Thread nD τ) arg4 fullShare x1 ∗ owns (c : Thread nD τ) arg5 fullShare xo
        ∗ (iprop(owns (c : Thread nD τ) arg3 fullShare x0 ∗ owns (c : Thread nD τ) arg4 fullShare x1 ∗ owns (c : Thread nD τ) arg5 fullShare (mmNext x0 x1 xo)) -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, Hk⟩
  subst hf0 hf1 hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mmCover _)

/-! ## What the result tile's buffer holds after each point -/

/-- THE ACCUMULATION over the points in order: at an even point (`k = 0`) the tile product of the point's blocks; at an
    odd point that product added to what the point before left (the buffer is not written back between). -/
def mmAcc (c : Dev nD) : (n : ℕ) → n < cfg1.N → Vec F S1024x2048 .f32
  | 0, hn => mmFirst (mmBlk V c 0 ⟨0, hn⟩) (mmBlk V c 1 ⟨0, hn⟩)
  | n + 1, hn =>
    if (n + 1) % 2 = 0 then mmFirst (mmBlk V c 0 ⟨n + 1, hn⟩) (mmBlk V c 1 ⟨n + 1, hn⟩)
    else mmNext (mmBlk V c 0 ⟨n + 1, hn⟩) (mmBlk V c 1 ⟨n + 1, hn⟩) (mmAcc c n (Nat.lt_of_succ_lt hn))

theorem mmAcc_first (c : Dev nD) (t : Fin cfg1.N) (h0 : t.val % 2 = 0) :
    mmAcc V c t.val t.isLt = mmFirst (mmBlk V c 0 t) (mmBlk V c 1 t) := by
  obtain ⟨n, hn⟩ := t
  cases n with
  | zero => exact rfl
  | succ n => exact (if_pos h0).trans rfl

theorem mmAcc_next (c : Dev nD) (t : Fin cfg1.N) (h0 : ¬t.val % 2 = 0) :
    mmAcc V c t.val t.isLt = mmNext (mmBlk V c 0 t) (mmBlk V c 1 t) (mmAcc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of the product pass on core `c`: the arrays as the pass finds them; after the body at point `t`
    each input's buffer at its block and the result's at `mmAcc`; the invariant the scoped rest and the generator
    register, untouched; nothing owed; full shares. -/
def mmDat (c : Dev nD) : Dat τ (Elt F) Unit ℕ (UR sig nD τ) ℕ cfg1 c where
  A w := V c (Pipeline.arrRef spec1 w)
  after w t := match w with
    | ⟨0, _⟩ => mmBlk V c 0 t
    | ⟨1, _⟩ => mmBlk V c 1 t
    | ⟨2, _⟩ => mmAcc V c t.val t.isLt
  Φ _ := Pipeline.ΦA spec1 c
  q _ := fullShare
  owed _ := 0

theorem mmA_eq (c : Dev nD) (w : Fin cfg1.W) : (mmDat V c).A w = V c (Pipeline.arrRef spec1 w) := by
  dsimp only [mmDat]

theorem mmAfter0 (c : Dev nD) (t : Fin cfg1.N) : (mmDat V c).after 0 t = mmBlk V c 0 t := by dsimp only [mmDat]
theorem mmAfter1 (c : Dev nD) (t : Fin cfg1.N) : (mmDat V c).after 1 t = mmBlk V c 1 t := by dsimp only [mmDat]
theorem mmAfter2 (c : Dev nD) (t : Fin cfg1.N) : (mmDat V c).after 2 t = mmAcc V c t.val t.isLt := by dsimp only [mmDat]

theorem mmBefore0 (c : Dev nD) (t : Fin cfg1.N) (d) : (mmDat V c).before 0 t d = mmBlk V c 0 t :=
  mmBefore0_of V (mmDat V c) (mmA_eq V c 0) (mmAfter0 V c) t d
theorem mmBefore1 (c : Dev nD) (t : Fin cfg1.N) (d) : (mmDat V c).before 1 t d = mmBlk V c 1 t :=
  mmBefore1_of V (mmDat V c) (mmA_eq V c 1) (mmAfter1 V c) t d
/-- At an odd point the result tile's buffer holds what the body left at the point before: the point is not the first,
    the even point before it does not write the tile back, the window is live and uncut. -/
theorem mmBefore2_next (c : Dev nD) (t : Fin cfg1.N) (h0 : ¬t.val % 2 = 0) (d) :
    (mmDat V c).before 2 t d = mmAcc V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    mmLive (fun _ _ => rfl)]
  dsimp only [mmDat]

/-! ## The body obligation -/

theorem mmLive0 (t : Fin cfg1.N) : cfg1.idle 0 (cfg1.grid.coords t) = false := rfl
theorem mmLive1 (t : Fin cfg1.N) : cfg1.idle 1 (cfg1.grid.coords t) = false := rfl

/-- What the body is called with at point `t`, the windows one by one, -/
def mmPre (c : Dev nD) (t : Fin cfg1.N) : sProp 𝕄 :=
  iprop((mmDat V c).Φ t.castSucc ∗ (mmDat V c).owesAt () t.castSucc
    ∗ (∃ d, owns (c : Thread nD τ) (st1_0 t) fullShare ((mmDat V c).before 0 t d))
    ∗ (∃ d, owns (c : Thread nD τ) (st1_1 t) fullShare ((mmDat V c).before 1 t d))
    ∗ (∃ d, owns (c : Thread nD τ) (st1_2 t) fullShare ((mmDat V c).before 2 t d)))

/-- and what it returns. -/
def mmPost (c : Dev nD) (t : Fin cfg1.N) : sProp 𝕄 :=
  iprop((mmDat V c).Φ t.succ ∗ (mmDat V c).owesAt () t.succ
    ∗ (mmDat V c).leavesExact 0 t
    ∗ (mmDat V c).leavesExact 1 t
    ∗ (mmDat V c).leavesExact 2 t)

set_option maxHeartbeats 800000 in
/-- The body at any point: the inputs' buffers hold their blocks; the point's parity says which case it is in, and at
    an odd point the result's buffer holds what the point before left; so the case's run applies; the invariant and
    the core's dues pass through unread. -/
theorem mmBody (c : Dev nD) (t : Fin cfg1.N) :
    mmPre V c t ⊢ wp frame (wpE (defs₀ (F := F)) Variants.none c none) Set.univ (bodyAt1 t) (fun _ => mmPost V c t) := by
  unfold mmPre mmPost bodyAt1
  simp only [mmBefore0, mmBefore1]
  rw [show (mmDat V c).Φ t.succ = (mmDat V c).Φ t.castSucc from rfl,
    show (mmDat V c).owesAt () t.succ = (mmDat V c).owesAt () t.castSucc from rfl,
    show (mmDat V c).leavesExact 0 t = owns (c : Thread nD τ) (st1_0 t) fullShare ((mmDat V c).after 0 t) from by
      unfold Dat.leavesExact; rw [mmLive0 t],
    show (mmDat V c).leavesExact 1 t = owns (c : Thread nD τ) (st1_1 t) fullShare ((mmDat V c).after 1 t) from by
      unfold Dat.leavesExact; rw [mmLive1 t],
    show (mmDat V c).leavesExact 2 t = owns (c : Thread nD τ) (st1_2 t) fullShare ((mmDat V c).after 2 t) from by
      unfold Dat.leavesExact; rw [mmLive (cfg1.grid.coords t)],
    mmAfter0, mmAfter1, mmAfter2]
  by_cases h0 : t.val % 2 = 0
  · rw [mmAcc_first V c t h0]
    iintro ⟨HΦ, Ho, ⟨%d0, H0⟩, ⟨%d1, H1⟩, ⟨%d2, H2⟩⟩
    iapply (mmKernelFirst c Set.univ (grid1.coords t) _ _ _ _ _ _ ((mmCondFirst t).mpr h0) (fun h => by have := (mmCondNext t).mp h; omega)
      (mmBlk V c 0 t) (mmBlk V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [mmAcc_next V c t h0]
    simp only [mmBefore2_next V c t h0]
    iintro ⟨HΦ, Ho, ⟨%d0, H0⟩, ⟨%d1, H1⟩, ⟨%d2, H2⟩⟩
    iapply (mmKernelNext c Set.univ (grid1.coords t) _ _ _ _ _ _ (fun h => h0 ((mmCondFirst t).mp h)) ((mmCondNext t).mpr (by omega))
      (mmBlk V c 0 t) (mmBlk V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation of the product pass, at every point. -/
theorem mmObligation (c : Dev nD) : BodyObligation (mmDat (F := F) V c) (defs₀ (F := F)) Variants.none () Set.univ := fun t => by
  rw [bigSep_W1, bigSep_W1]
  exact mmBody V c t

end Cert.Kernel.Fr

end
-- ==== Proof.RunB.lean ====
/-
  The whole run of the program at any float instance: the host stretch that cuts slot 0 out of the two stacked low-rank
  arrays, then the weight-folding pass, then the blocked product.

  The buffer contents at each boundary are a fold from the launch memory: after the host stretch (`W1`), after the
  folding pass (`W2`: its arrays at what the pass's write-backs leave, every other buffer as entered) and after the product
  pass (`W3`, likewise). Each pass is a segment entered with every unscoped buffer at the boundary's contents and left
  at the next boundary's; its proof data are the pass's own, at its entry contents. The run theorem `run_all` says every
  weakly fair execution terminates with every unscoped buffer at `W3`; read at the four arguments that is the launch
  memory (no host operation and no pass writes one), and read at the result it is the product pass's array after all
  its write-backs.
-/
import proofs.«128359_g11295763988856_week1_w4_63_30_alg».proof.Proof.FoldB
import proofs.«128359_g11295763988856_week1_w4_63_30_alg».proof.Proof.MmB
import proofs.«128359_g11295763988856_week1_w4_63_30_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the folding pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the folding pass: its arrays at what the pass leaves, every other buffer as entered. -/
def W2 (c : Dev nD) : Valuation τ sig (Elt F) :=
  Pipeline.withArrays spec0 c (W1 m ρ c) fun w => (foldDat (V1 m ρ) c).arrAt w cfg0.N
theorem W2_arr (c : Dev nD) (w : Fin cfg0.W) :
    W2 m ρ c (Proc.devRef .tc (Pipeline.arrRef spec0 w)) = (foldDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (foldDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the product pass: its arrays at what the pass leaves, every other buffer as entered. -/
def W3 (c : Dev nD) : Valuation τ sig (Elt F) :=
  Pipeline.withArrays spec1 c (W2 m ρ c) fun w => (mmDat (V2 m ρ) c).arrAt w cfg1.N
theorem W3_arr (c : Dev nD) (w : Fin cfg1.W) :
    W3 m ρ c (Proc.devRef .tc (Pipeline.arrRef spec1 w)) = (mmDat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (mmDat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched, and the result is the product pass's array -/

/-- The host stretch writes only the four cut-out buffers. -/
theorem W1_of (c : Dev nD) (r : Ref sig .tc) (h : r ∉ hostOps0_W) : W1 m ρ c (Proc.devRef .tc r) = m ((c : Thread nD τ).loc r) :=
  Gen.V1_of m c r h

/-- `x`: an input of the product pass, no array of the folding pass, not written by the host stretch. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((mmDat (V2 m ρ) c).arrAt_in 0 rfl _).trans (mmA_eq (V2 m ρ) c 0))
    _ = W1 m ρ c (Proc.devRef .tc main_arg0) := W2_of_ne m ρ c main_arg0 (by decide)
    _ = m ((c : Thread nD τ).loc main_arg0) := W1_of m ρ c main_arg0 (by decide)
/-- `W`: an input of the folding pass, no array of the product pass. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((foldDat (V1 m ρ) c).arrAt_in 0 rfl _).trans (foldA_eq (V1 m ρ) c 0))
    _ = m ((c : Thread nD τ).loc main_arg1) := W1_of m ρ c main_arg1 (by decide)
/-- The stacked low-rank arrays: no pass's array; the host stretch only reads them. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of m ρ c main_arg3 (by decide)
/-- The result: the product pass's output array after all its write-backs. -/
theorem W3_main_v0 (c : Dev nD) : W3 m ρ c (Proc.devRef .tc main_v0) = (mmDat (V2 m ρ) c).arrAt 2 cfg1.N :=
  W3_arr m ρ c 2

/-! ## The proof data family and the thread state -/

abbrev adm : (p : Fin 2) → (pcfgs (F := F) p).Adm := fun p => (cfgs p).toPCfg_adm
/-- Every pass's proof data, each at its entry contents. -/
def pdats : (p : Fin 2) → (c : Dev nD) → Dat τ (Elt F) Unit ℕ (UR sig nD τ) ℕ (Pipeline.pin (pcfgs (F := F)) adm p) c
  | ⟨0, _⟩ => fun c => foldDat (V1 m ρ) c
  | ⟨1, _⟩ => fun c => mmDat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W3`, the generator register at some state. -/
abbrev Tₙ (c : Dev nD) : sProp 𝕄 := iprop(StableHlo.held (c : Thread nD τ) (Pipeline.ucRefs τ sig) (W3 m ρ c) ∗ ∃ r, prngReg c r)

/-! ## The passes as segments -/

set_option backward.isDefEq.respectTransparency.types false in
/-- THE FOLDING PASS over the thread state: entered with every unscoped buffer at `W1`, left at `W2`. Its arrays are
    split out of the unscoped buffers and put back at the exit contents; the generator register goes into the pass's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (foldObligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE PRODUCT PASS over the thread state: entered with every unscoped buffer at `W2`, left at `W3`, which the
    launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (mmObligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state has every unscoped buffer of every core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result named: the result array ends at the product pass's output array after all its
    write-backs, and every argument array as launched. -/
theorem run_result : θ_run defs (onTc (τ := τ) (main (F := F))) ⟨m, fun _ => 0, ρ⟩ (fun r => ∀ c : Dev nD,
      r.2.mem ((c.tc : Thread nD τ).loc main_v0) = (mmDat (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (W3_main_v0 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Fr

end
-- ==== Proof.FoldI.lean ====
/-
  The weight-folding pass of the program, as a pipeline over a 4 × 4 grid of 1024 × 1024 tiles, at any float instance.

  At grid point (j, k) the pass reads tile (j, k) of the base weight `W`, the 1024 rows `j` of the low-rank factor
  `B0` (1024 × 16) and the 1024 columns `k` of the factor `A0` (16 × 1024), and writes tile (j, k) of the folded weight:
  the narrowing of `W + 1·(B0·A0)`. Stated here: what the tile's staging buffer holds after the body as one function
  `foldOut` of the three blocks read (the single store, which covers the tile), that the body run on whole staging
  buffers leaves exactly that, the pipeline's proof data (every input buffer holds its block at every point, fetched
  there or kept from the point before; nothing owed; full shares), and the body obligation at every point.
  Everything is stated at a parameter `V`: the buffer contents when the pass is entered.
-/
import proofs.«128359_g11295763988856_week1_w4_63_30_alg».proof.Proof.Gen.KernelIdeal.Launch
import proofs.«128359_g11295763988856_week1_w4_63_30_alg».proof.Proof.Gen.KernelIdeal.Skeleton
import proofs.«128359_g11295763988856_week1_w4_63_30_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def foldBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index did not move since the point before: for any proof data whose array is `V`'s and whose body leaves
    the block in place. Window 0 (the tile of `W`). -/
theorem foldBefore0_of {c : Dev nD} (dat : Dat τ (Elt F) Unit ℕ (UR sig nD τ) ℕ cfg0 c) (hA : dat.A 0 = V c (Pipeline.arrRef spec0 0))
    (hafter : ∀ t, dat.after 0 t = foldBlk V c 0 t) (t : Fin cfg0.N) (d) : dat.before 0 t d = foldBlk V c 0 t :=
  (dat.before_in_eq_fetched 0 rfl (fun _ => rfl) (fun _ _ _ => rfl) (fun t => by rw [hafter]; unfold Dat.blockOf foldBlk; rw [hA]; try rfl) t d).trans
    (by unfold Dat.fetched Dat.blockOf foldBlk; rw [hA]; try rfl)
/-- Window 1 (the rows of `B0`; its index moves only with `j`). -/
theorem foldBefore1_of {c : Dev nD} (dat : Dat τ (Elt F) Unit ℕ (UR sig nD τ) ℕ cfg0 c) (hA : dat.A 1 = V c (Pipeline.arrRef spec0 1))
    (hafter : ∀ t, dat.after 1 t = foldBlk V c 1 t) (t : Fin cfg0.N) (d) : dat.before 1 t d = foldBlk V c 1 t :=
  (dat.before_in_eq_fetched 1 rfl (fun _ => rfl) (fun _ _ _ => rfl) (fun t => by rw [hafter]; unfold Dat.blockOf foldBlk; rw [hA]; try rfl) t d).trans
    (by unfold Dat.fetched Dat.blockOf foldBlk; rw [hA]; try rfl)
/-- Window 2 (the columns of `A0`). -/
theorem foldBefore2_of {c : Dev nD} (dat : Dat τ (Elt F) Unit ℕ (UR sig nD τ) ℕ cfg0 c) (hA : dat.A 2 = V c (Pipeline.arrRef spec0 2))
    (hafter : ∀ t, dat.after 2 t = foldBlk V c 2 t) (t : Fin cfg0.N) (d) : dat.before 2 t d = foldBlk V c 2 t :=
  (dat.before_in_eq_fetched 2 rfl (fun _ => rfl) (fun _ _ _ => rfl) (fun t => by rw [hafter]; unfold Dat.blockOf foldBlk; rw [hA]; try rfl) t d).trans
    (by unfold Dat.fetched Dat.blockOf foldBlk; rw [hA]; try rfl)

/-! ## The body's accesses: each buffer whole -/

abbrev rTile : Rect S1024x1024 := Rect.unit (s := S1024x1024) ![0, 0] S1024x1024.size inb_S1024x1024_S1024x1024_0_0
abbrev rRows : Rect S1024x16 := Rect.unit (s := S1024x16) ![0, 0] S1024x16.size inb_S1024x16_S1024x16_0_0
abbrev rCols : Rect S16x1024 := Rect.unit (s := S16x1024) ![0, 0] S16x1024.size inb_S16x1024_S16x1024_0_0

/-- What the body leaves in the output tile's staging buffer, from the three blocks read (`x0` the tile of `W`,
    `x1` the rows of `B0`, `x2` the columns of `A0`): its one store, of the narrowed `W + 1·(B0·A0)`. -/
def foldOut (x0 : Vec F S1024x1024 .f32) (x1 : Vec F S1024x16 .f32) (x2 : Vec F S16x1024 .f32) : Vec F S1024x1024 .bf16 :=
  View.canon [⟨rTile, k0_pay1 (View.ld x1 rRows) (View.ld x2 rCols) (View.ld x0 rTile)⟩]

/-- The store is of the whole tile, so it covers the buffer. -/
theorem foldCover (p0 : Vec F S1024x1024 .bf16) (y : S1024x1024.Idx) :
    ∃ pc ∈ ([⟨rTile, p0⟩] : List (View.Piece (Elt F) S1024x1024 .bf16)), y ∈ pc.1.set :=
  View.cover_of_tiled [⟨rTile, p0⟩] S1024x1024.size (by rfl) y

/-! ## The body's run -/

set_option maxHeartbeats 1000000 in
/-- The body on whole staging buffers, the inputs' at contents `x0 x1 x2` and the output's at anything, runs to the
    continuation with the inputs' as they were and the output's at `foldOut` of them. -/
theorem foldKernel (c : Dev nD) (E : Set ℕ) (i : grid0.Coords) (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (foldOut x0 x1 x2)) -∗ K ⟨⟩))
      ⊢ wp frame (wpE (defs₀ (F := F)) Variants.none c none) E (cc0__fold_kernel i arg2 harg2 arg3 harg3 arg4 harg4 arg5 harg5) K := by
  simp only [cc0__fold_kernel_eq_skeleton]; unfold cc0__fold_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (foldCover _)

/-! ## The pipeline's proof data -/

/-- The proof data of the folding pass on core `c`: the arrays as the pass finds them; after the body at point `t`
    each input's buffer at its block and the output's at `foldOut` of the three; the invariant the scoped rest and the
    generator register, untouched; nothing owed; full shares. -/
def foldDat (c : Dev nD) : Dat τ (Elt F) Unit ℕ (UR sig nD τ) ℕ cfg0 c where
  A w := V c (Pipeline.arrRef spec0 w)
  after w t := match w with
    | ⟨0, _⟩ => foldBlk V c 0 t
    | ⟨1, _⟩ => foldBlk V c 1 t
    | ⟨2, _⟩ => foldBlk V c 2 t
    | ⟨3, _⟩ => foldOut (foldBlk V c 0 t) (foldBlk V c 1 t) (foldBlk V c 2 t)
  Φ _ := Pipeline.ΦA spec0 c
  q _ := fullShare
  owed _ := 0

theorem foldA_eq (c : Dev nD) (w : Fin cfg0.W) : (foldDat V c).A w = V c (Pipeline.arrRef spec0 w) := by
  dsimp only [foldDat]

theorem foldAfter0 (c : Dev nD) (t : Fin cfg0.N) : (foldDat V c).after 0 t = foldBlk V c 0 t := by dsimp only [foldDat]
theorem foldAfter1 (c : Dev nD) (t : Fin cfg0.N) : (foldDat V c).after 1 t = foldBlk V c 1 t := by dsimp only [foldDat]
theorem foldAfter2 (c : Dev nD) (t : Fin cfg0.N) : (foldDat V c).after 2 t = foldBlk V c 2 t := by dsimp only [foldDat]
theorem foldAfter3 (c : Dev nD) (t : Fin cfg0.N) :
    (foldDat V c).after 3 t = foldOut (foldBlk V c 0 t) (foldBlk V c 1 t) (foldBlk V c 2 t) := by dsimp only [foldDat]

theorem foldBefore0 (c : Dev nD) (t : Fin cfg0.N) (d) : (foldDat V c).before 0 t d = foldBlk V c 0 t :=
  foldBefore0_of V (foldDat V c) (foldA_eq V c 0) (foldAfter0 V c) t d
theorem foldBefore1 (c : Dev nD) (t : Fin cfg0.N) (d) : (foldDat V c).before 1 t d = foldBlk V c 1 t :=
  foldBefore1_of V (foldDat V c) (foldA_eq V c 1) (foldAfter1 V c) t d
theorem foldBefore2 (c : Dev nD) (t : Fin cfg0.N) (d) : (foldDat V c).before 2 t d = foldBlk V c 2 t :=
  foldBefore2_of V (foldDat V c) (foldA_eq V c 2) (foldAfter2 V c) t d

/-! ## The body obligation -/

/-- What the body is called with at point `t`, the windows one by one, -/
def foldPre (c : Dev nD) (t : Fin cfg0.N) : sProp 𝕄 :=
  iprop((foldDat V c).Φ t.castSucc ∗ (foldDat V c).owesAt () t.castSucc
    ∗ (∃ d, owns (c : Thread nD τ) (st0_0 t) fullShare ((foldDat V c).before 0 t d))
    ∗ (∃ d, owns (c : Thread nD τ) (st0_1 t) fullShare ((foldDat V c).before 1 t d))
    ∗ (∃ d, owns (c : Thread nD τ) (st0_2 t) fullShare ((foldDat V c).before 2 t d))
    ∗ (∃ d, owns (c : Thread nD τ) (st0_3 t) fullShare ((foldDat V c).before 3 t d)))

/-- and what it returns. -/
def foldPost (c : Dev nD) (t : Fin cfg0.N) : sProp 𝕄 :=
  iprop((foldDat V c).Φ t.succ ∗ (foldDat V c).owesAt () t.succ
    ∗ owns (c : Thread nD τ) (st0_0 t) fullShare ((foldDat V c).after 0 t)
    ∗ owns (c : Thread nD τ) (st0_1 t) fullShare ((foldDat V c).after 1 t)
    ∗ owns (c : Thread nD τ) (st0_2 t) fullShare ((foldDat V c).after 2 t)
    ∗ owns (c : Thread nD τ) (st0_3 t) fullShare ((foldDat V c).after 3 t))

/-- The body at any point: the inputs' buffers hold their blocks, so the body's run applies; the invariant and the
    core's dues pass through unread. -/
theorem foldBody (c : Dev nD) (t : Fin cfg0.N) :
    foldPre V c t ⊢ wp frame (wpE (defs₀ (F := F)) Variants.none c none) Set.univ (bodyAt0 t) (fun _ => foldPost V c t) := by
  unfold foldPre foldPost bodyAt0
  simp only [foldBefore0, foldBefore1, foldBefore2]
  rw [show (foldDat V c).Φ t.succ = (foldDat V c).Φ t.castSucc from rfl,
    show (foldDat V c).owesAt () t.succ = (foldDat V c).owesAt () t.castSucc from rfl,
    foldAfter0, foldAfter1, foldAfter2, foldAfter3]
  iintro ⟨HΦ, Ho, ⟨%d0, H0⟩, ⟨%d1, H1⟩, ⟨%d2, H2⟩, ⟨%d3, H3⟩⟩
  iapply (foldKernel c Set.univ _ _ _ _ _ _ _ _ _ (foldBlk V c 0 t) (foldBlk V c 1 t) (foldBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the folding pass, at every point. -/
theorem foldObligation (c : Dev nD) : BodyObligation (foldDat (F := F) V c) (defs₀ (F := F)) Variants.none () Set.univ := fun t => by
  rw [bigSep_W0, bigSep_W0]
  exact foldBody V c t

end Cert.KernelIdeal.Fr

end
-- ==== Proof.MmI.lean ====
/-
  The blocked product of the program, as a pipeline over a 16 × 2 × 2 grid, at any float instance.

  At grid point (i, j, k) — `k` innermost — the pass reads the 1024 × 2048 tile (i, k) of `x` and the 2048 × 2048 tile
  (j, k) of the folded weight, and works on the 1024 × 2048 tile (i, j) of the result, whose staging buffer stays in
  place while `k` runs: at `k = 0` it STORES the tile product `x(i,k) · w(j,k)ᵀ`; at `k ≠ 0` it ADDS the tile product to
  what the buffer holds. The buffer is written back after the last `k`. Stated here: the two cases' stores as functions
  of the blocks read (`mmFirst`, `mmNext`), the body's run in each case, what the result tile's buffer holds point by
  point (`mmAcc`: the recursion over the points, restarted at every even point), the pipeline's proof data and the body
  obligation. The result window is live at every point (one of the two cases always applies).
  Everything is stated at a parameter `V`: the buffer contents when the pass is entered.
-/
import proofs.«128359_g11295763988856_week1_w4_63_30_alg».proof.Proof.Gen.KernelIdeal.Launch
import proofs.«128359_g11295763988856_week1_w4_63_30_alg».proof.Proof.Gen.KernelIdeal.Skeleton
import proofs.«128359_g11295763988856_week1_w4_63_30_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def mmBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. Window 0 (the tile of `x`). -/
theorem mmBefore0_of {c : Dev nD} (dat : Dat τ (Elt F) Unit ℕ (UR sig nD τ) ℕ cfg1 c) (hA : dat.A 0 = V c (Pipeline.arrRef spec1 0))
    (hafter : ∀ t, dat.after 0 t = mmBlk V c 0 t) (t : Fin cfg1.N) (d) : dat.before 0 t d = mmBlk V c 0 t :=
  (dat.before_in_eq_fetched 0 rfl (fun _ => rfl) (fun _ _ _ => rfl) (fun t => by rw [hafter]; unfold Dat.blockOf mmBlk; rw [hA]; try rfl) t d).trans
    (by unfold Dat.fetched Dat.blockOf mmBlk; rw [hA]; try rfl)
/-- Window 1 (the tile of the folded weight). -/
theorem mmBefore1_of {c : Dev nD} (dat : Dat τ (Elt F) Unit ℕ (UR sig nD τ) ℕ cfg1 c) (hA : dat.A 1 = V c (Pipeline.arrRef spec1 1))
    (hafter : ∀ t, dat.after 1 t = mmBlk V c 1 t) (t : Fin cfg1.N) (d) : dat.before 1 t d = mmBlk V c 1 t :=
  (dat.before_in_eq_fetched 1 rfl (fun _ => rfl) (fun _ _ _ => rfl) (fun t => by rw [hafter]; unfold Dat.blockOf mmBlk; rw [hA]; try rfl) t d).trans
    (by unfold Dat.fetched Dat.blockOf mmBlk; rw [hA]; try rfl)

/-! ## The body's accesses: each buffer whole -/

abbrev rRes : Rect S1024x2048 := Rect.unit (s := S1024x2048) ![0, 0] S1024x2048.size inb_S1024x2048_S1024x2048_0_0
abbrev rWgt : Rect S2048x2048 := Rect.unit (s := S2048x2048) ![0, 0] S2048x2048.size inb_S2048x2048_S2048x2048_0_0

/-- At `k = 0`: the result tile's buffer is stored the tile product of `x0` (the tile of `x`) and `x1` (the tile of the
    folded weight). -/
def mmFirst (x0 : Vec F S1024x2048 .f32) (x1 : Vec F S2048x2048 .bf16) : Vec F S1024x2048 .f32 :=
  View.canon [⟨rRes, k1_pay1 (View.ld x0 rRes) (View.ld x1 rWgt)⟩]

/-- At `k ≠ 0`: the buffer, holding `xo`, is stored `xo` plus the tile product. -/
def mmNext (x0 : Vec F S1024x2048 .f32) (x1 : Vec F S2048x2048 .bf16) (xo : Vec F S1024x2048 .f32) : Vec F S1024x2048 .f32 :=
  View.canon [⟨rRes, k1_pay2 (View.ld xo rRes) (View.ld x0 rRes) (View.ld x1 rWgt)⟩]

/-- Either store is of the whole tile, so it covers the buffer. -/
theorem mmCover (p0 : Vec F S1024x2048 .f32) (y : S1024x2048.Idx) :
    ∃ pc ∈ ([⟨rRes, p0⟩] : List (View.Piece (Elt F) S1024x2048 .f32)), y ∈ pc.1.set :=
  View.cover_of_tiled [⟨rRes, p0⟩] S1024x2048.size (by rfl) y

/-! ## Which case a point is in, and that the result window is never idle -/

/-- The first branch is taken exactly at the even points (`k = 0`). -/
theorem mmCondFirst : ∀ t : Fin cfg1.N, k1_cond1 (grid1.coords t) = 1#1 ↔ t.val % 2 = 0 :=
  (by decide +kernel : ∀ t : Fin grid1.N, k1_cond1 (grid1.coords t) = 1#1 ↔ t.val % 2 = 0)
/-- The second branch is taken exactly at the odd points (`k = 1`). -/
theorem mmCondNext : ∀ t : Fin cfg1.N, k1_cond2 (grid1.coords t) = 1#1 ↔ t.val % 2 = 1 :=
  (by decide +kernel : ∀ t : Fin grid1.N, k1_cond2 (grid1.coords t) = 1#1 ↔ t.val % 2 = 1)

/-- At every coordinate one of the two branches is taken (`k` is 0 or 1): the result window is idle nowhere. -/
theorem mmLive : ∀ i : grid1.Coords, cfg1.idle 2 i = false := by
  intro i
  have h2 : (i 2).val < 2 := (i 2).isLt
  show (!(k1_cond1 i == 1#1) && !(k1_cond2 i == 1#1)) = false
  unfold k1_cond1 k1_cond2
  rcases (by omega : (i 2).val = 0 ∨ (i 2).val = 1) with h | h <;> rw [h] <;> decide

/-! ## The body's run, case by case -/

set_option maxHeartbeats 1000000 in
/-- `k = 0`: on whole staging buffers, the inputs' at `x0 x1` and the result's at anything, the body runs to the
    continuation with the inputs' as they were and the result's at `mmFirst x0 x1`. -/
theorem mmKernelFirst (c : Dev nD) (E : Set ℕ) (i : grid1.Coords) (arg3 : Memref sig .tc .vmem S1024x2048 .f32) (harg3 : arg3.IsWhole) (arg4 : Memref sig .tc .vmem S2048x2048 .bf16) (harg4 : arg4.IsWhole)
    (arg5 : Memref sig .tc .vmem S1024x2048 .f32) (harg5 : arg5.IsWhole) (h1 : k1_cond1 i = 1#1) (h2 : ¬k1_cond2 i = 1#1)
    (x0 : Vec F S1024x2048 .f32) (x1 : Vec F S2048x2048 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (mmFirst x0 x1)) -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mmCover _)

set_option maxHeartbeats 1000000 in
/-- `k ≠ 0`: on whole staging buffers, the inputs' at `x0 x1` and the result's at `xo`, the body runs to the
    continuation with the inputs' as they were and the result's at `mmNext x0 x1 xo`. -/
theorem mmKernelNext (c : Dev nD) (E : Set ℕ) (i : grid1.Coords) (arg3 : Memref sig .tc .vmem S1024x2048 .f32) (harg3 : arg3.IsWhole) (arg4 : Memref sig .tc .vmem S2048x2048 .bf16) (harg4 : arg4.IsWhole)
    (arg5 : Memref sig .tc .vmem S1024x2048 .f32) (harg5 : arg5.IsWhole) (h1 : ¬k1_cond1 i = 1#1) (h2 : k1_cond2 i = 1#1)
    (x0 : Vec F S1024x2048 .f32) (x1 : Vec F S2048x2048 .bf16) (xo : Vec F S1024x2048 .f32) (K : PUnit → sProp 𝕄) :
    iprop(owns (c : Thread nD τ) arg3 fullShare x0 ∗ owns (c : Thread nD τ) arg4 fullShare x1 ∗ owns (c : Thread nD τ) arg5 fullShare xo
        ∗ (iprop(owns (c : Thread nD τ) arg3 fullShare x0 ∗ owns (c : Thread nD τ) arg4 fullShare x1 ∗ owns (c : Thread nD τ) arg5 fullShare (mmNext x0 x1 xo)) -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, Hk⟩
  subst hf0 hf1 hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mmCover _)

/-! ## What the result tile's buffer holds after each point -/

/-- THE ACCUMULATION over the points in order: at an even point (`k = 0`) the tile product of the point's blocks; at an
    odd point that product added to what the point before left (the buffer is not written back between). -/
def mmAcc (c : Dev nD) : (n : ℕ) → n < cfg1.N → Vec F S1024x2048 .f32
  | 0, hn => mmFirst (mmBlk V c 0 ⟨0, hn⟩) (mmBlk V c 1 ⟨0, hn⟩)
  | n + 1, hn =>
    if (n + 1) % 2 = 0 then mmFirst (mmBlk V c 0 ⟨n + 1, hn⟩) (mmBlk V c 1 ⟨n + 1, hn⟩)
    else mmNext (mmBlk V c 0 ⟨n + 1, hn⟩) (mmBlk V c 1 ⟨n + 1, hn⟩) (mmAcc c n (Nat.lt_of_succ_lt hn))

theorem mmAcc_first (c : Dev nD) (t : Fin cfg1.N) (h0 : t.val % 2 = 0) :
    mmAcc V c t.val t.isLt = mmFirst (mmBlk V c 0 t) (mmBlk V c 1 t) := by
  obtain ⟨n, hn⟩ := t
  cases n with
  | zero => exact rfl
  | succ n => exact (if_pos h0).trans rfl

theorem mmAcc_next (c : Dev nD) (t : Fin cfg1.N) (h0 : ¬t.val % 2 = 0) :
    mmAcc V c t.val t.isLt = mmNext (mmBlk V c 0 t) (mmBlk V c 1 t) (mmAcc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of the product pass on core `c`: the arrays as the pass finds them; after the body at point `t`
    each input's buffer at its block and the result's at `mmAcc`; the invariant the scoped rest and the generator
    register, untouched; nothing owed; full shares. -/
def mmDat (c : Dev nD) : Dat τ (Elt F) Unit ℕ (UR sig nD τ) ℕ cfg1 c where
  A w := V c (Pipeline.arrRef spec1 w)
  after w t := match w with
    | ⟨0, _⟩ => mmBlk V c 0 t
    | ⟨1, _⟩ => mmBlk V c 1 t
    | ⟨2, _⟩ => mmAcc V c t.val t.isLt
  Φ _ := Pipeline.ΦA spec1 c
  q _ := fullShare
  owed _ := 0

theorem mmA_eq (c : Dev nD) (w : Fin cfg1.W) : (mmDat V c).A w = V c (Pipeline.arrRef spec1 w) := by
  dsimp only [mmDat]

theorem mmAfter0 (c : Dev nD) (t : Fin cfg1.N) : (mmDat V c).after 0 t = mmBlk V c 0 t := by dsimp only [mmDat]
theorem mmAfter1 (c : Dev nD) (t : Fin cfg1.N) : (mmDat V c).after 1 t = mmBlk V c 1 t := by dsimp only [mmDat]
theorem mmAfter2 (c : Dev nD) (t : Fin cfg1.N) : (mmDat V c).after 2 t = mmAcc V c t.val t.isLt := by dsimp only [mmDat]

theorem mmBefore0 (c : Dev nD) (t : Fin cfg1.N) (d) : (mmDat V c).before 0 t d = mmBlk V c 0 t :=
  mmBefore0_of V (mmDat V c) (mmA_eq V c 0) (mmAfter0 V c) t d
theorem mmBefore1 (c : Dev nD) (t : Fin cfg1.N) (d) : (mmDat V c).before 1 t d = mmBlk V c 1 t :=
  mmBefore1_of V (mmDat V c) (mmA_eq V c 1) (mmAfter1 V c) t d
/-- At an odd point the result tile's buffer holds what the body left at the point before: the point is not the first,
    the even point before it does not write the tile back, the window is live and uncut. -/
theorem mmBefore2_next (c : Dev nD) (t : Fin cfg1.N) (h0 : ¬t.val % 2 = 0) (d) :
    (mmDat V c).before 2 t d = mmAcc V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    mmLive (fun _ _ => rfl)]
  dsimp only [mmDat]

/-! ## The body obligation -/

theorem mmLive0 (t : Fin cfg1.N) : cfg1.idle 0 (cfg1.grid.coords t) = false := rfl
theorem mmLive1 (t : Fin cfg1.N) : cfg1.idle 1 (cfg1.grid.coords t) = false := rfl

/-- What the body is called with at point `t`, the windows one by one, -/
def mmPre (c : Dev nD) (t : Fin cfg1.N) : sProp 𝕄 :=
  iprop((mmDat V c).Φ t.castSucc ∗ (mmDat V c).owesAt () t.castSucc
    ∗ (∃ d, owns (c : Thread nD τ) (st1_0 t) fullShare ((mmDat V c).before 0 t d))
    ∗ (∃ d, owns (c : Thread nD τ) (st1_1 t) fullShare ((mmDat V c).before 1 t d))
    ∗ (∃ d, owns (c : Thread nD τ) (st1_2 t) fullShare ((mmDat V c).before 2 t d)))

/-- and what it returns. -/
def mmPost (c : Dev nD) (t : Fin cfg1.N) : sProp 𝕄 :=
  iprop((mmDat V c).Φ t.succ ∗ (mmDat V c).owesAt () t.succ
    ∗ (mmDat V c).leavesExact 0 t
    ∗ (mmDat V c).leavesExact 1 t
    ∗ (mmDat V c).leavesExact 2 t)

set_option maxHeartbeats 800000 in
/-- The body at any point: the inputs' buffers hold their blocks; the point's parity says which case it is in, and at
    an odd point the result's buffer holds what the point before left; so the case's run applies; the invariant and
    the core's dues pass through unread. -/
theorem mmBody (c : Dev nD) (t : Fin cfg1.N) :
    mmPre V c t ⊢ wp frame (wpE (defs₀ (F := F)) Variants.none c none) Set.univ (bodyAt1 t) (fun _ => mmPost V c t) := by
  unfold mmPre mmPost bodyAt1
  simp only [mmBefore0, mmBefore1]
  rw [show (mmDat V c).Φ t.succ = (mmDat V c).Φ t.castSucc from rfl,
    show (mmDat V c).owesAt () t.succ = (mmDat V c).owesAt () t.castSucc from rfl,
    show (mmDat V c).leavesExact 0 t = owns (c : Thread nD τ) (st1_0 t) fullShare ((mmDat V c).after 0 t) from by
      unfold Dat.leavesExact; rw [mmLive0 t],
    show (mmDat V c).leavesExact 1 t = owns (c : Thread nD τ) (st1_1 t) fullShare ((mmDat V c).after 1 t) from by
      unfold Dat.leavesExact; rw [mmLive1 t],
    show (mmDat V c).leavesExact 2 t = owns (c : Thread nD τ) (st1_2 t) fullShare ((mmDat V c).after 2 t) from by
      unfold Dat.leavesExact; rw [mmLive (cfg1.grid.coords t)],
    mmAfter0, mmAfter1, mmAfter2]
  by_cases h0 : t.val % 2 = 0
  · rw [mmAcc_first V c t h0]
    iintro ⟨HΦ, Ho, ⟨%d0, H0⟩, ⟨%d1, H1⟩, ⟨%d2, H2⟩⟩
    iapply (mmKernelFirst c Set.univ (grid1.coords t) _ _ _ _ _ _ ((mmCondFirst t).mpr h0) (fun h => by have := (mmCondNext t).mp h; omega)
      (mmBlk V c 0 t) (mmBlk V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [mmAcc_next V c t h0]
    simp only [mmBefore2_next V c t h0]
    iintro ⟨HΦ, Ho, ⟨%d0, H0⟩, ⟨%d1, H1⟩, ⟨%d2, H2⟩⟩
    iapply (mmKernelNext c Set.univ (grid1.coords t) _ _ _ _ _ _ (fun h => h0 ((mmCondFirst t).mp h)) ((mmCondNext t).mpr (by omega))
      (mmBlk V c 0 t) (mmBlk V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation of the product pass, at every point. -/
theorem mmObligation (c : Dev nD) : BodyObligation (mmDat (F := F) V c) (defs₀ (F := F)) Variants.none () Set.univ := fun t => by
  rw [bigSep_W1, bigSep_W1]
  exact mmBody V c t

end Cert.KernelIdeal.Fr

end
-- ==== Proof.RunI.lean ====
/-
  The whole run of the program at any float instance: the host stretch that cuts slot 0 out of the two stacked low-rank
  arrays, then the weight-folding pass, then the blocked product.

  The buffer contents at each boundary are a fold from the launch memory: after the host stretch (`W1`), after the
  folding pass (`W2`: its arrays at what the pass's write-backs leave, every other buffer as entered) and after the product
  pass (`W3`, likewise). Each pass is a segment entered with every unscoped buffer at the boundary's contents and left
  at the next boundary's; its proof data are the pass's own, at its entry contents. The run theorem `run_all` says every
  weakly fair execution terminates with every unscoped buffer at `W3`; read at the four arguments that is the launch
  memory (no host operation and no pass writes one), and read at the result it is the product pass's array after all
  its write-backs.
-/
import proofs.«128359_g11295763988856_week1_w4_63_30_alg».proof.Proof.FoldI
import proofs.«128359_g11295763988856_week1_w4_63_30_alg».proof.Proof.MmI
import proofs.«128359_g11295763988856_week1_w4_63_30_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the folding pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the folding pass: its arrays at what the pass leaves, every other buffer as entered. -/
def W2 (c : Dev nD) : Valuation τ sig (Elt F) :=
  Pipeline.withArrays spec0 c (W1 m ρ c) fun w => (foldDat (V1 m ρ) c).arrAt w cfg0.N
theorem W2_arr (c : Dev nD) (w : Fin cfg0.W) :
    W2 m ρ c (Proc.devRef .tc (Pipeline.arrRef spec0 w)) = (foldDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (foldDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the product pass: its arrays at what the pass leaves, every other buffer as entered. -/
def W3 (c : Dev nD) : Valuation τ sig (Elt F) :=
  Pipeline.withArrays spec1 c (W2 m ρ c) fun w => (mmDat (V2 m ρ) c).arrAt w cfg1.N
theorem W3_arr (c : Dev nD) (w : Fin cfg1.W) :
    W3 m ρ c (Proc.devRef .tc (Pipeline.arrRef spec1 w)) = (mmDat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (mmDat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched, and the result is the product pass's array -/

/-- The host stretch writes only the four cut-out buffers. -/
theorem W1_of (c : Dev nD) (r : Ref sig .tc) (h : r ∉ hostOps0_W) : W1 m ρ c (Proc.devRef .tc r) = m ((c : Thread nD τ).loc r) :=
  Gen.V1_of m c r h

/-- `x`: an input of the product pass, no array of the folding pass, not written by the host stretch. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((mmDat (V2 m ρ) c).arrAt_in 0 rfl _).trans (mmA_eq (V2 m ρ) c 0))
    _ = W1 m ρ c (Proc.devRef .tc main_arg0) := W2_of_ne m ρ c main_arg0 (by decide)
    _ = m ((c : Thread nD τ).loc main_arg0) := W1_of m ρ c main_arg0 (by decide)
/-- `W`: an input of the folding pass, no array of the product pass. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((foldDat (V1 m ρ) c).arrAt_in 0 rfl _).trans (foldA_eq (V1 m ρ) c 0))
    _ = m ((c : Thread nD τ).loc main_arg1) := W1_of m ρ c main_arg1 (by decide)
/-- The stacked low-rank arrays: no pass's array; the host stretch only reads them. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of m ρ c main_arg3 (by decide)
/-- The result: the product pass's output array after all its write-backs. -/
theorem W3_main_v0 (c : Dev nD) : W3 m ρ c (Proc.devRef .tc main_v0) = (mmDat (V2 m ρ) c).arrAt 2 cfg1.N :=
  W3_arr m ρ c 2

/-! ## The proof data family and the thread state -/

abbrev adm : (p : Fin 2) → (pcfgs (F := F) p).Adm := fun p => (cfgs p).toPCfg_adm
/-- Every pass's proof data, each at its entry contents. -/
def pdats : (p : Fin 2) → (c : Dev nD) → Dat τ (Elt F) Unit ℕ (UR sig nD τ) ℕ (Pipeline.pin (pcfgs (F := F)) adm p) c
  | ⟨0, _⟩ => fun c => foldDat (V1 m ρ) c
  | ⟨1, _⟩ => fun c => mmDat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W3`, the generator register at some state. -/
abbrev Tₙ (c : Dev nD) : sProp 𝕄 := iprop(StableHlo.held (c : Thread nD τ) (Pipeline.ucRefs τ sig) (W3 m ρ c) ∗ ∃ r, prngReg c r)

/-! ## The passes as segments -/

set_option backward.isDefEq.respectTransparency.types false in
/-- THE FOLDING PASS over the thread state: entered with every unscoped buffer at `W1`, left at `W2`. Its arrays are
    split out of the unscoped buffers and put back at the exit contents; the generator register goes into the pass's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (foldObligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE PRODUCT PASS over the thread state: entered with every unscoped buffer at `W2`, left at `W3`, which the
    launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (mmObligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state has every unscoped buffer of every core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result named: the result array ends at the product pass's output array after all its
    write-backs, and every argument array as launched. -/
theorem run_result : θ_run defs (onTc (τ := τ) (main (F := F))) ⟨m, fun _ => 0, ρ⟩ (fun r => ∀ c : Dev nD,
      r.2.mem ((c.tc : Thread nD τ).loc main_v0) = (mmDat (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (W3_main_v0 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Fr

end
-- ==== Proof.Spec.lean ====
/-
  The two closed forms of the row-parallel linear layer with a rank-16 update, as functions of the four argument
  arrays over the extended reals, index by index.

  * `ref`: the layer as the reference computes it — the base product `∑ₖ x[m,k]·W[n,k]` plus `1` times the
    two-step low-rank path `∑ᵣ (∑ₖ x[m,k]·A[0,r,k])·B[0,n,r]`.
  * `weff`: the folded weight `W[n,k] + 1·∑ᵣ B[0,n,r]·A[0,r,k]`.
  * `kern`: the product of `x` with the folded weight, the contraction cut in two halves of 2048 that are added.

  The scale `1` is kept as the float word `0x3F800000` both sides share; it is never evaluated here.
-/
import Idealize.ShloMosaic.PureOps.Ideal
import Idealize.ShloMosaic.Lib.ValueIdx

noncomputable section

namespace Cert.RowLinear

open Idealize.ShloMosaic Idealize.ShloMosaic.ValueIdx

/-- The arguments' shapes. -/
abbrev SX : Shape := ⟨2, ![16384, 4096]⟩
abbrev SW : Shape := ⟨2, ![4096, 4096]⟩
abbrev SA : Shape := ⟨3, ![8, 16, 4096]⟩
abbrev SB : Shape := ⟨3, ![8, 4096, 16]⟩

/-- The scale both programs multiply the low-rank term by: the float word of `1.0`. -/
def one : EReal := Ideal.ofBits .f32 0x3F800000#32

/-- The low-rank factors are slot 0 of the stacked arrays. -/
def aRow (a : SA.Idx → EReal) (r : Fin 16) (k : Fin 4096) : EReal := a (ix3 (0 : Fin 8) r k)
def bRow (b : SB.Idx → EReal) (n : Fin 4096) (r : Fin 16) : EReal := b (ix3 (0 : Fin 8) n r)

/-- The folded weight: `W[n,k] + 1·∑ᵣ B[0,n,r]·A[0,r,k]`. -/
def weff (w : SW.Idx → EReal) (a : SA.Idx → EReal) (b : SB.Idx → EReal) (n k : Fin 4096) : EReal :=
  w (ix2 n k) + one * ∑ r : Fin 16, bRow b n r * aRow a r k

/-- The lower and the upper half of the contracted axis. -/
def lo (k : Fin 2048) : Fin 4096 := ⟨k.val, by omega⟩
def hi (k : Fin 2048) : Fin 4096 := ⟨2048 + k.val, by omega⟩

/-- One half of `x · weffᵀ` at row `p`, column `q`, over the half of the contracted axis `h` names. -/
def half (x : SX.Idx → EReal) (w : SW.Idx → EReal) (a : SA.Idx → EReal) (b : SB.Idx → EReal)
    (h : Fin 2048 → Fin 4096) (p : Fin 16384) (q : Fin 4096) : EReal :=
  ∑ k : Fin 2048, x (ix2 p (h k)) * weff w a b q (h k)

/-- The kernel's form: the two halves of `x · weffᵀ`, the lower first, added. -/
def kern (x : SX.Idx → EReal) (w : SW.Idx → EReal) (a : SA.Idx → EReal) (b : SB.Idx → EReal)
    (p : Fin 16384) (q : Fin 4096) : EReal :=
  half x w a b lo p q + half x w a b hi p q

/-- The reference's form: the base product plus `1` times the two-step low-rank path. -/
def ref (x : SX.Idx → EReal) (w : SW.Idx → EReal) (a : SA.Idx → EReal) (b : SB.Idx → EReal)
    (p : Fin 16384) (q : Fin 4096) : EReal :=
  (∑ k : Fin 4096, x (ix2 p k) * w (ix2 q k))
    + one * ∑ r : Fin 16, (∑ k : Fin 4096, x (ix2 p k) * aRow a r k) * bRow b q r

/-- Every entry of an array is a real number. -/
def AllReal {S : Shape} (f : S.Idx → EReal) : Prop := ∀ i, ∃ r : ℝ, f i = (r : EReal)

end Cert.RowLinear

end
-- ==== Proof.TileValue.lean ====
/-
  The kernel's three tile payloads read at an index, at the ideal instance.

  * The weight-folding pass stores, at `[p,q]` of a 1024 × 1024 tile, `W[p,q] + 1·∑ᵣ B[p,r]·A[r,q]`: the narrowing
    to the shorter format is the identity on extended reals, the product into a zero accumulator is the plain sum
    over the one contracted axis, and the scale is the float word of `1.0`, kept as the word.
  * The contraction pass stores, at `[p,q]` of a 1024 × 2048 tile, `∑ₖ x[p,k]·w[q,k]` at the first step of the
    contracted axis, and what the tile held plus that sum at the later step.
-/
import proofs.«128359_g11295763988856_week1_w4_63_30_alg».proof.Proof.FoldI
import proofs.«128359_g11295763988856_week1_w4_63_30_alg».proof.Proof.MmI
import proofs.«128359_g11295763988856_week1_w4_63_30_alg».proof.Proof.Spec
import Idealize.ShloMosaic.Lib.ValueIdx
import Idealize.ShloMosaic.Lib.Pipeline.Value
import Idealize.ShloMosaic.PureOps.Ideal.Laws

noncomputable section

namespace Cert.KernelIdeal.TileValue

open Cert.KernelIdeal Cert.KernelIdeal.Gen Cert.KernelIdeal.Fr Idealize.ShloMosaic Idealize.ShloMosaic.ValueIdx

/-- A whole-buffer access starts at the origin. -/
theorem hz : (![0, 0] : Fin 2 → Nat) = fun _ => 0 := funext fun a => by fin_cases a <;> rfl

/-! ### The two contractions at an index -/

/-- The rank-16 product's dimension numbers: the left operand's axis 1 against the right operand's axis 0. -/
abbrev DF : DotDims S1024x16 S16x1024 S1024x1024 := dot_S1024x16_S16x1024_S1024x1024_1_0_0_1_n_n
/-- The tile product's dimension numbers: the left operand's axis 1 against the right operand's axis 1. -/
abbrev DM : DotDims S1024x2048 S2048x2048 S1024x2048 := dot_S1024x2048_S2048x2048_S1024x2048_1_1_0_0_n_n

theorem lhsF_0 (i : S1024x1024.Idx) (k : DF.contr.Idx) : (DF.lhsIdx i k 0).val = (i 0).val := by
  unfold DotDims.lhsIdx
  rw [dif_neg (show ¬(0 : Fin S1024x16.rank) ∈ DF.lhsBatch by decide),
    dif_pos (show (0 : Fin S1024x16.rank) ∈ DF.lhsNonContracting by decide)]
  rfl
theorem lhsF_1 (i : S1024x1024.Idx) (k : DF.contr.Idx) : (DF.lhsIdx i k 1).val = (k ⟨0, by decide⟩).val :=
  DF.lhsIdx_val_of_single rfl i k
theorem rhsF_0 (i : S1024x1024.Idx) (k : DF.contr.Idx) : (DF.rhsIdx i k 0).val = (k ⟨0, by decide⟩).val :=
  DF.rhsIdx_val_of_single rfl i k
theorem rhsF_1 (i : S1024x1024.Idx) (k : DF.contr.Idx) : (DF.rhsIdx i k 1).val = (i 1).val := by
  unfold DotDims.rhsIdx
  rw [dif_neg (show ¬(1 : Fin S16x1024.rank) ∈ DF.rhsBatch by decide),
    dif_pos (show (1 : Fin S16x1024.rank) ∈ DF.rhsNonContracting by decide)]
  rfl

/-- The rank-16 product into a zero accumulator, at `[p,q]`: `∑ᵣ a[p,r]·b[r,q]`. -/
theorem mmF_apply {φ₁ φ₂ : FTy} (a : FVec Ideal S1024x16 φ₁) (b : FVec Ideal S16x1024 φ₂) (p q : Fin 1024) :
    FloatOps.matmul DF none a b (constant (F := Ideal) S1024x1024 .f32 0x00000000#32) (ix2 p q)
      = ∑ r : Fin 16, a (ix2 p r) * b (ix2 r q) := by
  rw [Ideal.matmul_constant_zero_apply, ← Equiv.sum_comp (contrEquiv1 DF 16 rfl rfl).symm]
  refine Finset.sum_congr rfl fun r _ => ?_
  have hk := contrEquiv1_symm_val DF 16 rfl rfl r
  have el : DF.lhsIdx (ix2 p q) ((contrEquiv1 DF 16 rfl rfl).symm r) = ix2 p r := funext fun d => Fin.ext (by
    match d with
    | ⟨0, _⟩ => exact lhsF_0 _ _
    | ⟨1, _⟩ => exact (lhsF_1 _ _).trans hk)
  have er : DF.rhsIdx (ix2 p q) ((contrEquiv1 DF 16 rfl rfl).symm r) = ix2 r q := funext fun d => Fin.ext (by
    match d with
    | ⟨0, _⟩ => exact (rhsF_0 _ _).trans hk
    | ⟨1, _⟩ => exact rhsF_1 _ _)
  rw [el, er]

theorem lhsM_0 (i : S1024x2048.Idx) (k : DM.contr.Idx) : (DM.lhsIdx i k 0).val = (i 0).val := by
  unfold DotDims.lhsIdx
  rw [dif_neg (show ¬(0 : Fin S1024x2048.rank) ∈ DM.lhsBatch by decide),
    dif_pos (show (0 : Fin S1024x2048.rank) ∈ DM.lhsNonContracting by decide)]
  rfl
theorem lhsM_1 (i : S1024x2048.Idx) (k : DM.contr.Idx) : (DM.lhsIdx i k 1).val = (k ⟨0, by decide⟩).val :=
  DM.lhsIdx_val_of_single rfl i k
theorem rhsM_0 (i : S1024x2048.Idx) (k : DM.contr.Idx) : (DM.rhsIdx i k 0).val = (i 1).val := by
  unfold DotDims.rhsIdx
  rw [dif_neg (show ¬(0 : Fin S2048x2048.rank) ∈ DM.rhsBatch by decide),
    dif_pos (show (0 : Fin S2048x2048.rank) ∈ DM.rhsNonContracting by decide)]
  rfl
theorem rhsM_1 (i : S1024x2048.Idx) (k : DM.contr.Idx) : (DM.rhsIdx i k 1).val = (k ⟨0, by decide⟩).val :=
  DM.rhsIdx_val_of_single rfl i k

/-- The tile product into a zero accumulator, at `[p,q]`: `∑ₖ a[p,k]·b[q,k]`. -/
theorem mmM_apply {φ₁ φ₂ : FTy} (a : FVec Ideal S1024x2048 φ₁) (b : FVec Ideal S2048x2048 φ₂) (p : Fin 1024) (q : Fin 2048) :
    FloatOps.matmul DM none a b (constant (F := Ideal) S1024x2048 .f32 0x00000000#32) (ix2 p q)
      = ∑ k : Fin 2048, a (ix2 p k) * b (ix2 q k) := by
  rw [Ideal.matmul_constant_zero_apply, ← Equiv.sum_comp (contrEquiv1 DM 2048 rfl rfl).symm]
  refine Finset.sum_congr rfl fun k _ => ?_
  have hk := contrEquiv1_symm_val DM 2048 rfl rfl k
  have el : DM.lhsIdx (ix2 p q) ((contrEquiv1 DM 2048 rfl rfl).symm k) = ix2 p k := funext fun d => Fin.ext (by
    match d with
    | ⟨0, _⟩ => exact lhsM_0 _ _
    | ⟨1, _⟩ => exact (lhsM_1 _ _).trans hk)
  have er : DM.rhsIdx (ix2 p q) ((contrEquiv1 DM 2048 rfl rfl).symm k) = ix2 q k := funext fun d => Fin.ext (by
    match d with
    | ⟨0, _⟩ => exact rhsM_0 _ _
    | ⟨1, _⟩ => exact (rhsM_1 _ _).trans hk)
  rw [el, er]

/-! ### The payloads at an index -/

/-- The folding pass's payload at `[p,q]`. -/
theorem k0_pay1_apply (v0 : Vec Ideal S1024x16 .f32) (v3 : Vec Ideal S16x1024 .f32) (v7 : Vec Ideal S1024x1024 .f32)
    (p q : Fin 1024) :
    k0_pay1 (F := Ideal) v0 v3 v7 (ix2 p q)
      = v7 (ix2 p q) + Cert.RowLinear.one * ∑ r : Fin 16, v0 (ix2 p r) * v3 (ix2 r q) := by
  unfold k0_pay1
  show v7 (ix2 p q) + Ideal.ofBits .f32 0x3F800000#32
      * FloatOps.matmul DF none (truncf .bf16 (shapeCast S1024x16 v0 _) _ : FVec Ideal S1024x16 .bf16)
          (truncf .bf16 (shapeCast S16x1024 v3 _) _ : FVec Ideal S16x1024 .bf16)
          (constant (F := Ideal) S1024x1024 .f32 0x00000000#32) (ix2 p q) = _
  rw [shapeCast_self, shapeCast_self, mmF_apply]
  rfl

/-- The contraction pass's first-step payload at `[p,q]`. -/
theorem k1_pay1_apply (v6 : Vec Ideal S1024x2048 .f32) (v8 : Vec Ideal S2048x2048 .bf16) (p : Fin 1024) (q : Fin 2048) :
    k1_pay1 (F := Ideal) v6 v8 (ix2 p q) = ∑ k : Fin 2048, v6 (ix2 p k) * v8 (ix2 q k) := by
  unfold k1_pay1
  show FloatOps.matmul DM none (truncf .bf16 v6 _ : FVec Ideal S1024x2048 .bf16)
      (shapeCast S2048x2048 v8 _ : FVec Ideal S2048x2048 .bf16)
      (constant (F := Ideal) S1024x2048 .f32 0x00000000#32) (ix2 p q) = _
  rw [shapeCast_self, mmM_apply]
  rfl

/-- The contraction pass's later-step payload at `[p,q]`. -/
theorem k1_pay2_apply (v6 : Vec Ideal S1024x2048 .f32) (v8 : Vec Ideal S1024x2048 .f32) (v10 : Vec Ideal S2048x2048 .bf16)
    (p : Fin 1024) (q : Fin 2048) :
    k1_pay2 (F := Ideal) v6 v8 v10 (ix2 p q) = v6 (ix2 p q) + ∑ k : Fin 2048, v8 (ix2 p k) * v10 (ix2 q k) := by
  unfold k1_pay2
  show (shapeCast S1024x2048 v6 _ : FVec Ideal S1024x2048 .f32) (ix2 p q)
      + FloatOps.matmul DM none (truncf .bf16 v8 _ : FVec Ideal S1024x2048 .bf16)
          (shapeCast S2048x2048 v10 _ : FVec Ideal S2048x2048 .bf16)
          (constant (F := Ideal) S1024x2048 .f32 0x00000000#32) (ix2 p q) = _
  rw [shapeCast_self, shapeCast_self, mmM_apply]
  rfl

/-! ### What each pass stores, at an index -/

/-- The folding pass: `W[p,q] + 1·∑ᵣ B[p,r]·A[r,q]`. -/
theorem foldOut_apply (x0 : Vec Ideal S1024x1024 .f32) (x1 : Vec Ideal S1024x16 .f32) (x2 : Vec Ideal S16x1024 .f32)
    (p q : Fin 1024) :
    foldOut (F := Ideal) x0 x1 x2 (ix2 p q)
      = x0 (ix2 p q) + Cert.RowLinear.one * ∑ r : Fin 16, x1 (ix2 p r) * x2 (ix2 r q) := by
  unfold foldOut
  rw [View.canon_unit_zero hz]
  simp only [View.ld_unit_zero (S := S1024x1024) hz, View.ld_unit_zero (S := S1024x16) hz,
    View.ld_unit_zero (S := S16x1024) hz]
  exact k0_pay1_apply x1 x2 x0 p q

/-- The contraction pass at the first step: `∑ₖ x[p,k]·w[q,k]`. -/
theorem mmFirst_apply (x0 : Vec Ideal S1024x2048 .f32) (x1 : Vec Ideal S2048x2048 .bf16) (p : Fin 1024) (q : Fin 2048) :
    mmFirst (F := Ideal) x0 x1 (ix2 p q) = ∑ k : Fin 2048, x0 (ix2 p k) * x1 (ix2 q k) := by
  unfold mmFirst
  rw [View.canon_unit_zero hz]
  simp only [View.ld_unit_zero (S := S1024x2048) hz, View.ld_unit_zero (S := S2048x2048) hz]
  exact k1_pay1_apply x0 x1 p q

/-- The contraction pass at the later step: what the tile held plus `∑ₖ x[p,k]·w[q,k]`. -/
theorem mmNext_apply (x0 : Vec Ideal S1024x2048 .f32) (x1 : Vec Ideal S2048x2048 .bf16) (xo : Vec Ideal S1024x2048 .f32)
    (p : Fin 1024) (q : Fin 2048) :
    mmNext (F := Ideal) x0 x1 xo (ix2 p q) = xo (ix2 p q) + ∑ k : Fin 2048, x0 (ix2 p k) * x1 (ix2 q k) := by
  unfold mmNext
  rw [View.canon_unit_zero hz]
  simp only [View.ld_unit_zero (S := S1024x2048) hz, View.ld_unit_zero (S := S2048x2048) hz]
  exact k1_pay2_apply xo x0 x1 p q

end Cert.KernelIdeal.TileValue

end
-- ==== Proof.FoldValue.lean ====
/-
  The folding pass's output array as ONE function of the three arrays it reads, at the ideal instance.

  Tile (j, k) of the output is the store of `W + 1·(B0·A0)` over the pass's three blocks at the point (j, k); the block
  of `W` sits at the output tile's own place, the block of `B0` at the tile's rows and the block of `A0` at the tile's
  columns. So what each point writes back is its tile of one whole-array function `foldG` — entry (n, k) is
  `W[n,k] + 1·∑ᵣ B0[n,r]·A0[r,k]` — and, the sixteen tiles filling the 4096 × 4096 array, the array ends holding `foldG`.
-/
import proofs.«128359_g11295763988856_week1_w4_63_30_alg».proof.Proof.FoldI
import proofs.«128359_g11295763988856_week1_w4_63_30_alg».proof.Proof.TileValue
import proofs.«128359_g11295763988856_week1_w4_63_30_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr Cert.KernelIdeal.TileValue
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The folded weight from the base weight `Wa` and the two low-rank factors `Ba` (4096 × 16) and `Aa` (16 × 4096):
    entry (n, k) is `Wa[n,k] + 1·∑ᵣ Ba[n,r]·Aa[r,k]`. -/
def foldG (Wa : FVec Ideal S4096x4096 .f32) (Ba : FVec Ideal S4096x16 .f32) (Aa : FVec Ideal S16x4096 .f32) : FVec Ideal S4096x4096 .bf16 :=
  fun i => Wa i + Cert.RowLinear.one * ∑ r : Fin 16, Ba (ix2 (n0 := 4096) (i 0) r) * Aa (ix2 (n1 := 4096) r (i 1))

/-- The printed index maps over the grid: the block of `W` moves with the output tile, the block of `B0` with its row
    of tiles (column 0), the block of `A0` with its column of tiles (row 0); tile indices stay below 4. -/
theorem foldIdx : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every tile of the output is some point's. -/
theorem foldOnto : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- WHAT POINT `t` WRITES BACK is tile `t` of `foldG` of the three arrays as the pass finds them. -/
theorem foldFlushed (c : Dev nD) (t : Fin cfg0.N) :
    (foldDat V c).flushed 3 t = ((cfg0.win 3).blk t).view.read (Elt Ideal) (foldG (V c main_arg1) (V c main_call0_v3) (V c main_call0_v1)) := by
  show (cfg0.win 3).cut (grid0.coords t) ((foldDat V c).after 3 t) = _
  rw [foldAfter3]
  obtain ⟨e0, e1, e2, e3, e4, e5, e6, e7⟩ := foldIdx t
  funext j
  obtain ⟨p, q, rfl⟩ : ∃ (p q : Fin 1024), j = ix2 p q := ⟨j 0, j 1, eq_ix2 j⟩
  show foldOut (F := Ideal) (foldBlk V c 0 t) (foldBlk V c 1 t) (foldBlk V c 2 t) (ix2 p q)
    = foldG (V c main_arg1) (V c main_call0_v3) (V c main_call0_v1) (((cfg0.win 3).blk t).view.emb (ix2 p q))
  rw [foldOut_apply]
  unfold foldG
  have hW : foldBlk V c 0 t (ix2 p q) = V c main_arg1 (((cfg0.win 3).blk t).view.emb (ix2 p q)) := by
    show V c main_arg1 (((cfg0.win 0).blk t).view.emb (ix2 p q)) = V c main_arg1 (((cfg0.win 3).blk t).view.emb (ix2 p q))
    refine congrArg _ (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * q.val = win0_3.index t (1 : Fin 2) * 1024 + 1 * q.val; omega
  have hB : ∀ r : Fin 16, foldBlk V c 1 t (ix2 p r)
      = V c main_call0_v3 (ix2 (n0 := 4096) ((((cfg0.win 3).blk t).view.emb (ix2 p q)) 0) r) := by
    intro r
    show V c main_call0_v3 (((cfg0.win 1).blk t).view.emb (ix2 p r)) = _
    refine congrArg _ (funext fun a => Fin.ext ?_)
    match a with
    | ⟨0, _⟩ => show win0_1.index t (0 : Fin 2) * 1024 + 1 * p.val = win0_3.index t (0 : Fin 2) * 1024 + 1 * p.val; omega
    | ⟨1, _⟩ => show win0_1.index t (1 : Fin 2) * 16 + 1 * r.val = r.val; omega
  have hA : ∀ r : Fin 16, foldBlk V c 2 t (ix2 r q)
      = V c main_call0_v1 (ix2 (n1 := 4096) r ((((cfg0.win 3).blk t).view.emb (ix2 p q)) 1)) := by
    intro r
    show V c main_call0_v1 (((cfg0.win 2).blk t).view.emb (ix2 r q)) = _
    refine congrArg _ (funext fun a => Fin.ext ?_)
    match a with
    | ⟨0, _⟩ => show win0_2.index t (0 : Fin 2) * 16 + 1 * r.val = r.val; omega
    | ⟨1, _⟩ => show win0_2.index t (1 : Fin 2) * 1024 + 1 * q.val = win0_3.index t (1 : Fin 2) * 1024 + 1 * q.val; omega
  rw [hW]
  refine congrArg _ (congrArg _ (Finset.sum_congr rfl fun r _ => ?_))
  rw [hB r, hA r]

/-- An index of the output array is in point `t`'s tile iff each coordinate is in the tile's range on its axis. -/
theorem foldMemBlk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_call0_v4).slice (win0_3.rect t)).set ↔ _
  rw [View.set_slice_whole, Rect.mem_set_unit]
  exact Iff.rfl

/-- The sixteen tiles fill the array: entry (n, k) is in the tile (n / 1024, k / 1024). -/
theorem foldCovered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := foldOnto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [foldMemBlk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE OUTPUT ARRAY after the pass: `foldG` of the three arrays as the pass finds them. -/
theorem foldFinal (c : Dev nD) :
    (foldDat V c).arrAt 3 cfg0.N = foldG (V c main_arg1) (V c main_call0_v3) (V c main_call0_v1) :=
  (foldDat V c).arrAt_eq_of_cover 3 _ (fun t _ => foldFlushed V c t) foldCovered

end Cert.KernelIdeal.Val

end
-- ==== Proof.MmValue.lean ====
/-
  The product pass's output array as ONE function of the two arrays it reads, at the ideal instance.

  The result tile (i, j) is written back after the odd point (i, j, 1). What its buffer then holds is the sum the even
  point (i, j, 0) stored — the tile of `x` over the lower half of the contracted axis against the same half of the folded
  weight's rows — plus the odd point's own product over the upper half. The rows of `x` are the result tile's rows, the
  rows of the folded weight the result tile's columns. So what the odd point writes back is its tile of one whole-array
  function `mmG` — entry (m, n) is `∑ₖ x[m, k]·wf[n, k]` over the lower half plus the same over the upper half — and,
  the thirty-two tiles filling the 16384 × 4096 array, the array ends holding `mmG`.
-/
import proofs.«128359_g11295763988856_week1_w4_63_30_alg».proof.Proof.MmI
import proofs.«128359_g11295763988856_week1_w4_63_30_alg».proof.Proof.TileValue
import proofs.«128359_g11295763988856_week1_w4_63_30_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr Cert.KernelIdeal.TileValue
open Idealize.ShloMosaic Idealize.ShloMosaic.TcCoe Idealize.ShloMosaic.ValueIdx
open Idealize.SL.Sem
open Idealize.ShloMosaic.Pipeline (Dat Cfg Window)
open Cert.RowLinear (lo hi)

variable (V : (c : Dev nD) → (b : Ref sig .tc) → Buf (Elt Ideal) ((c : Thread nD τ).loc b))

/-- The product of `Xa` with the transpose of `Wf`, the contracted axis cut in its lower and upper halves, the lower
    half's sum first. -/
def mmG (Xa : FVec Ideal S16384x4096 .f32) (Wf : FVec Ideal S4096x4096 .bf16) : FVec Ideal S16384x4096 .f32 :=
  fun i => (∑ k : Fin 2048, Xa (ix2 (n0 := 16384) (i 0) (lo k)) * Wf (ix2 (n0 := 4096) (i 1) (lo k)))
    + ∑ k : Fin 2048, Xa (ix2 (n0 := 16384) (i 0) (hi k)) * Wf (ix2 (n0 := 4096) (i 1) (hi k))

/-- The printed index maps at an odd point (`k = 1`): the tile of `x` is at the result tile's row of tiles and the upper
    half, the tile of the folded weight at the result tile's column of tiles and the upper half. -/
theorem mmIdxOdd : ∀ t : Fin cfg1.N, t.val % 2 = 1 → win1_0.index t (0 : Fin 2) = win1_2.index t (0 : Fin 2)
    ∧ win1_0.index t (1 : Fin 2) = 1
    ∧ win1_1.index t (0 : Fin 2) = win1_2.index t (1 : Fin 2)
    ∧ win1_1.index t (1 : Fin 2) = 1
    ∧ win1_2.index t (0 : Fin 2) ≤ 15 ∧ win1_2.index t (1 : Fin 2) ≤ 1 :=
  (by decide +kernel : ∀ t : Fin grid1.N, t.val % 2 = 1 → _)

/-- At the even point before an odd one (`k = 0`, the same result tile): the same rows, the lower half. -/
theorem mmIdxPrev : ∀ t : Fin cfg1.N, t.val % 2 = 1 → ∀ h : t.val - 1 < cfg1.N,
    win1_0.index ⟨t.val - 1, h⟩ (0 : Fin 2) = win1_2.index t (0 : Fin 2)
    ∧ win1_0.index ⟨t.val - 1, h⟩ (1 : Fin 2) = 0
    ∧ win1_1.index ⟨t.val - 1, h⟩ (0 : Fin 2) = win1_2.index t (1 : Fin 2)
    ∧ win1_1.index ⟨t.val - 1, h⟩ (1 : Fin 2) = 0 :=
  (by decide +kernel : ∀ t : Fin grid1.N, t.val % 2 = 1 → ∀ h : t.val - 1 < grid1.N, _)

/-- Every result tile is some odd point's. -/
theorem mmOnto : ∀ (q0 : Fin 16) (q1 : Fin 2), ∃ t : Fin cfg1.N, t.val % 2 = 1 ∧ win1_2.index t = ![q0.val, q1.val] :=
  (by decide +kernel : ∀ (q0 : Fin 16) (q1 : Fin 2), ∃ t : Fin grid1.N, t.val % 2 = 1 ∧ win1_2.index t = ![q0.val, q1.val])

/-- WHAT A WRITING POINT `t` WRITES BACK is tile `t` of `mmG` of the two arrays as the pass finds them. -/
theorem mmFlushed (c : Dev nD) (t : Fin cfg1.N) (hf : (cfg1.win 2).flush t = true) :
    (mmDat V c).flushed 2 t = ((cfg1.win 2).blk t).view.read (Elt Ideal) (mmG (V c main_arg0) (V c main_call0_v4)) := by
  have hodd : t.val % 2 = 1 := (flush1_2 t).mp hf
  have h' : t.val - 1 < cfg1.N := Nat.lt_of_le_of_lt (Nat.sub_le _ _) t.isLt
  show (cfg1.win 2).cut (grid1.coords t) ((mmDat V c).after 2 t) = _
  rw [mmAfter2, mmAcc_next V c t (by omega),
    show mmAcc V c (t.val - 1) h' = mmFirst (mmBlk V c 0 ⟨t.val - 1, h'⟩) (mmBlk V c 1 ⟨t.val - 1, h'⟩) from
      mmAcc_first V c ⟨t.val - 1, h'⟩ (by show (t.val - 1) % 2 = 0; omega)]
  obtain ⟨e0, e1, e2, e3, e4, e5⟩ := mmIdxOdd t hodd
  obtain ⟨d0, d1, d2, d3⟩ := mmIdxPrev t hodd h'
  funext j
  obtain ⟨p, q, rfl⟩ : ∃ (p : Fin 1024) (q : Fin 2048), j = ix2 p q := ⟨j 0, j 1, eq_ix2 j⟩
  show mmNext (F := Ideal) (mmBlk V c 0 t) (mmBlk V c 1 t) (mmFirst (F := Ideal) (mmBlk V c 0 ⟨t.val - 1, h'⟩) (mmBlk V c 1 ⟨t.val - 1, h'⟩)) (ix2 p q)
    = mmG (V c main_arg0) (V c main_call0_v4) (((cfg1.win 2).blk t).view.emb (ix2 p q))
  rw [mmNext_apply, mmFirst_apply]
  unfold mmG
  have hX' : ∀ k : Fin 2048, mmBlk V c 0 ⟨t.val - 1, h'⟩ (ix2 p k)
      = V c main_arg0 (ix2 (n0 := 16384) ((((cfg1.win 2).blk t).view.emb (ix2 p q)) 0) (lo k)) := by
    intro k
    show V c main_arg0 (((cfg1.win 0).blk ⟨t.val - 1, h'⟩).view.emb (ix2 p k)) = _
    refine congrArg _ (funext fun a => Fin.ext ?_)
    match a with
    | ⟨0, _⟩ => show win1_0.index ⟨t.val - 1, h'⟩ (0 : Fin 2) * 1024 + 1 * p.val = win1_2.index t (0 : Fin 2) * 1024 + 1 * p.val; omega
    | ⟨1, _⟩ => show win1_0.index ⟨t.val - 1, h'⟩ (1 : Fin 2) * 2048 + 1 * k.val = k.val; omega
  have hW' : ∀ k : Fin 2048, mmBlk V c 1 ⟨t.val - 1, h'⟩ (ix2 q k)
      = V c main_call0_v4 (ix2 (n0 := 4096) ((((cfg1.win 2).blk t).view.emb (ix2 p q)) 1) (lo k)) := by
    intro k
    show V c main_call0_v4 (((cfg1.win 1).blk ⟨t.val - 1, h'⟩).view.emb (ix2 q k)) = _
    refine congrArg _ (funext fun a => Fin.ext ?_)
    match a with
    | ⟨0, _⟩ => show win1_1.index ⟨t.val - 1, h'⟩ (0 : Fin 2) * 2048 + 1 * q.val = win1_2.index t (1 : Fin 2) * 2048 + 1 * q.val; omega
    | ⟨1, _⟩ => show win1_1.index ⟨t.val - 1, h'⟩ (1 : Fin 2) * 2048 + 1 * k.val = k.val; omega
  have hX : ∀ k : Fin 2048, mmBlk V c 0 t (ix2 p k)
      = V c main_arg0 (ix2 (n0 := 16384) ((((cfg1.win 2).blk t).view.emb (ix2 p q)) 0) (hi k)) := by
    intro k
    show V c main_arg0 (((cfg1.win 0).blk t).view.emb (ix2 p k)) = _
    refine congrArg _ (funext fun a => Fin.ext ?_)
    match a with
    | ⟨0, _⟩ => show win1_0.index t (0 : Fin 2) * 1024 + 1 * p.val = win1_2.index t (0 : Fin 2) * 1024 + 1 * p.val; omega
    | ⟨1, _⟩ => show win1_0.index t (1 : Fin 2) * 2048 + 1 * k.val = 2048 + k.val; omega
  have hW : ∀ k : Fin 2048, mmBlk V c 1 t (ix2 q k)
      = V c main_call0_v4 (ix2 (n0 := 4096) ((((cfg1.win 2).blk t).view.emb (ix2 p q)) 1) (hi k)) := by
    intro k
    show V c main_call0_v4 (((cfg1.win 1).blk t).view.emb (ix2 q k)) = _
    refine congrArg _ (funext fun a => Fin.ext ?_)
    match a with
    | ⟨0, _⟩ => show win1_1.index t (0 : Fin 2) * 2048 + 1 * q.val = win1_2.index t (1 : Fin 2) * 2048 + 1 * q.val; omega
    | ⟨1, _⟩ => show win1_1.index t (1 : Fin 2) * 2048 + 1 * k.val = 2048 + k.val; omega
  refine congrArg₂ (· + ·) (Finset.sum_congr rfl fun k _ => ?_) (Finset.sum_congr rfl fun k _ => ?_)
  · rw [hX' k, hW' k]
  · rw [hX k, hW k]

/-- An index of the result array is in point `t`'s tile iff each coordinate is in the tile's range on its axis. -/
theorem mmMemBlk (t : Fin cfg1.N) (i : S16384x4096.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v0).slice (win1_2.rect t)).set ↔ _
  rw [View.set_slice_whole, Rect.mem_set_unit]
  exact Iff.rfl

/-- The thirty-two tiles fill the array: entry (m, n) is in the tile (m / 1024, n / 2048), which an odd point writes. -/
theorem mmCovered (i : S16384x4096.Idx) :
    ∃ t : Fin cfg1.N, (cfg1.win 2).flush t = true ∧ i ∈ ((cfg1.win 2).blk t).view.set := by
  have hi0 : (i 0).val < 16384 := (i 0).isLt
  have hi1 : (i 1).val < 4096 := (i 1).isLt
  obtain ⟨t, hodd, ht⟩ := mmOnto ⟨(i 0).val / 1024, by omega⟩ ⟨(i 1).val / 2048, by omega⟩
  have q0 : win1_2.index t (0 : Fin 2) = (i 0).val / 1024 := congrFun ht 0
  have q1 : win1_2.index t (1 : Fin 2) = (i 1).val / 2048 := congrFun ht 1
  refine ⟨t, (flush1_2 t).mpr hodd, ?_⟩
  rw [mmMemBlk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 2048 ≤ (i 1).val ∧ (i 1).val < win1_2.index t (1 : Fin 2) * 2048 + 2048; omega

/-- THE RESULT ARRAY after the pass: `mmG` of the two arrays as the pass finds them. -/
theorem mmFinal (c : Dev nD) :
    (mmDat V c).arrAt 2 cfg1.N = mmG (V c main_arg0) (V c main_call0_v4) :=
  (mmDat V c).arrAt_eq_of_cover 2 _ (fun t hf => mmFlushed V c t hf) mmCovered

end Cert.KernelIdeal.Val

end
-- ==== Proof.KernelValue.lean ====
/-
  The program's result array as one function of its four arguments, at the ideal instance.

  The product pass ends with `x · wfᵀ` cut in two halves (MmValue), where `x` is the first argument as launched and `wf`
  the folding pass's output: `W + 1·(B0·A0)` entry by entry (FoldValue), `W` the second argument as launched and `B0`,
  `A0` what the host stretch cut out — `B0[n,r]` is entry (0, n, r) of the fourth argument and `A0[r,k]` entry (0, r, k) of
  the third (a slice of the leading axis at 0, then the unit axis dropped). Substituting, entry (m, n) of the result is the
  specification's `kern` of the four arguments.
-/
import proofs.«128359_g11295763988856_week1_w4_63_30_alg».proof.Proof.RunI
import proofs.«128359_g11295763988856_week1_w4_63_30_alg».proof.Proof.FoldValue
import proofs.«128359_g11295763988856_week1_w4_63_30_alg».proof.Proof.MmValue
import proofs.«128359_g11295763988856_week1_w4_63_30_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo
open Idealize.SL.Sem
open Cert.RowLinear (lo hi)

variable (m : (ℓ : Loc nD τ sig) → Buf (Elt Ideal) ℓ) (ρ : Dev nD → PrngReg)

/-! ## What the host stretch cut out -/

/-- The factor `B0` as the folding pass finds it: slot 0 of the fourth argument, its unit axis dropped. -/
theorem hostB_term (c : Dev nD) : (Fr.V1 m ρ c main_call0_v3 : FVec Ideal S4096x16 .f32)
    = shapeCast S4096x16 (extractStridedSlice S1x4096x16 ![0, 0, 0] (m ((c : Thread nD τ).loc main_arg3)) Facts₀.slices_S8x4096x16_S1x4096x16_0_0_0) Facts₀.shapeCasts_S1x4096x16_S4096x16 := by
  dsimp only [Fr.V1, Fr.W1, hostOps0]
  after_results
  rfl

/-- The factor `A0` as the folding pass finds it: slot 0 of the third argument, its unit axis dropped. -/
theorem hostA_term (c : Dev nD) : (Fr.V1 m ρ c main_call0_v1 : FVec Ideal S16x4096 .f32)
    = shapeCast S16x4096 (extractStridedSlice S1x16x4096 ![0, 0, 0] (m ((c : Thread nD τ).loc main_arg2)) Facts₀.slices_S8x16x4096_S1x16x4096_0_0_0) Facts₀.shapeCasts_S1x16x4096_S16x4096 := by
  dsimp only [Fr.V1, Fr.W1, hostOps0]
  after_results
  rfl

/-- `B0[n, r]` is entry (0, n, r) of the fourth argument: the row-major position of (0, n, r) in 1 × 4096 × 16 is that of
    (n, r) in 4096 × 16, and the slice starts at 0 on every axis. -/
theorem hostB (c : Dev nD) (n : Fin 4096) (r : Fin 16) :
    Fr.V1 m ρ c main_call0_v3 (ix2 n r) = m ((c : Thread nD τ).loc main_arg3) (ix3 (0 : Fin 8) n r) := by
  rw [hostB_term]
  generalize m ((c : Thread nD τ).loc main_arg3) = x3
  refine (shapeCast_apply _ Facts₀.shapeCasts_S1x4096x16_S4096x16 (ix2 n r) (ix3 (0 : Fin 1) n r)
    (by rewrite [Shape.rowMajor_val_three, Shape.rowMajor_val_two]; show (0 * 4096 + n.val) * 16 + r.val = n.val * 16 + r.val; omega)).trans ?_
  exact extractStridedSlice_apply ![0, 0, 0] x3 Facts₀.slices_S8x4096x16_S1x4096x16_0_0_0 (ix3 (0 : Fin 1) n r) (ix3 (0 : Fin 8) n r) (fun a => match a with
    | ⟨0, _⟩ => by show (0 : Nat) = 0 + 0; omega
    | ⟨1, _⟩ => by show n.val = 0 + n.val; omega
    | ⟨2, _⟩ => by show r.val = 0 + r.val; omega)

/-- `A0[r, k]` is entry (0, r, k) of the third argument. -/
theorem hostA (c : Dev nD) (r : Fin 16) (k : Fin 4096) :
    Fr.V1 m ρ c main_call0_v1 (ix2 r k) = m ((c : Thread nD τ).loc main_arg2) (ix3 (0 : Fin 8) r k) := by
  rw [hostA_term]
  generalize m ((c : Thread nD τ).loc main_arg2) = x2
  refine (shapeCast_apply _ Facts₀.shapeCasts_S1x16x4096_S16x4096 (ix2 r k) (ix3 (0 : Fin 1) r k)
    (by rewrite [Shape.rowMajor_val_three, Shape.rowMajor_val_two]; show (0 * 16 + r.val) * 4096 + k.val = r.val * 4096 + k.val; omega)).trans ?_
  exact extractStridedSlice_apply ![0, 0, 0] x2 Facts₀.slices_S8x16x4096_S1x16x4096_0_0_0 (ix3 (0 : Fin 1) r k) (ix3 (0 : Fin 8) r k) (fun a => match a with
    | ⟨0, _⟩ => by show (0 : Nat) = 0 + 0; omega
    | ⟨1, _⟩ => by show r.val = 0 + r.val; omega
    | ⟨2, _⟩ => by show k.val = 0 + k.val; omega)

/-! ## The folded weight, and the result -/

/-- The folded weight read at a pair of coordinates. -/
theorem foldG_apply (Wa : FVec Ideal S4096x4096 .f32) (Ba : FVec Ideal S4096x16 .f32) (Aa : FVec Ideal S16x4096 .f32) (n k : Fin 4096) :
    foldG Wa Ba Aa (ix2 n k) = Wa (ix2 n k) + Cert.RowLinear.one * ∑ r : Fin 16, Ba (ix2 n r) * Aa (ix2 r k) := rfl

/-- Entry (n, k) of the folding pass's output is the specification's folded weight of the launch arguments. -/
theorem folded_eq_weff (c : Dev nD) (n k : Fin 4096) :
    Fr.V2 m ρ c main_call0_v4 (ix2 n k)
      = Cert.RowLinear.weff (m ((c : Thread nD τ).loc main_arg1)) (m ((c : Thread nD τ).loc main_arg2)) (m ((c : Thread nD τ).loc main_arg3)) n k := by
  have h : Fr.V2 m ρ c main_call0_v4 = foldG (Fr.V1 m ρ c main_arg1) (Fr.V1 m ρ c main_call0_v3) (Fr.V1 m ρ c main_call0_v1) :=
    (Fr.W2_arr m ρ c 3).trans (foldFinal (Fr.V1 m ρ) c)
  rw [h, foldG_apply]
  unfold Cert.RowLinear.weff Cert.RowLinear.bRow Cert.RowLinear.aRow
  rw [show Fr.V1 m ρ c main_arg1 = m ((c : Thread nD τ).loc main_arg1) from Fr.W1_of m ρ c main_arg1 (by decide)]
  refine congrArg _ (congrArg _ (Finset.sum_congr rfl fun r _ => ?_))
  rw [hostB m ρ c n r, hostA m ρ c r k]

/-- THE RESULT ARRAY after the run: entry (p, q) is the specification's `kern` of the four launch arguments. -/
theorem kernel_result (c : Dev nD) :
    (mmDat (Fr.V2 m ρ) c).arrAt 2 cfg1.N
      = fun i => Cert.RowLinear.kern (m ((c : Thread nD τ).loc main_arg0)) (m ((c : Thread nD τ).loc main_arg1)) (m ((c : Thread nD τ).loc main_arg2)) (m ((c : Thread nD τ).loc main_arg3)) (i 0) (i 1) := by
  rw [mmFinal (Fr.V2 m ρ) c]
  have hX : Fr.V2 m ρ c main_arg0 = m ((c : Thread nD τ).loc main_arg0) :=
    (Fr.W2_of_ne m ρ c main_arg0 (by decide)).trans (Fr.W1_of m ρ c main_arg0 (by decide))
  rw [hX]
  funext i
  unfold mmG Cert.RowLinear.kern Cert.RowLinear.half
  refine congrArg₂ (· + ·) (Finset.sum_congr rfl fun k _ => ?_) (Finset.sum_congr rfl fun k _ => ?_)
  · exact congrArg _ (folded_eq_weff m ρ c (i 1) (lo k))
  · exact congrArg _ (folded_eq_weff m ρ c (i 1) (hi k))

end Cert.KernelIdeal.Val

end
-- ==== Proof.RefIsSpec.lean ====
/-
  The reference program's value, read one element at a time, is the reference's closed form `Cert.RowLinear.ref`:
  the base product `∑ₖ x[m,k]·W[n,k]` (the transposed weight read back at `[n,k]`) plus the scale times the
  two-step low-rank path, whose factors are slot 0 of the stacked arrays read through slice, reshape and transpose.
-/
import proofs.«128359_g11295763988856_week1_w4_63_30_alg».proof.Proof.Spec
import proofs.«128359_g11295763988856_week1_w4_63_30_alg».proof.Proof.Gen.ReferenceIdeal.Read

noncomputable section

namespace Cert.ReferenceIdeal.RefValue

open Cert.ReferenceIdeal Cert.ReferenceIdeal.Read Idealize.ShloMosaic Idealize.ShloMosaic.ValueIdx

/-! ### Where each operand is read: the composed index maps, by coordinates -/

/-- The base product reads `x` at `[m,k]`. -/
theorem x_base (p : Fin 16384) (q k : Fin 4096) : lidx_main_v1 (ix2 p q) k = ix2 p k :=
  funext fun a => Fin.ext (by match a with | ⟨0, _⟩ => rfl | ⟨1, _⟩ => rfl)

/-- The base product reads the transposed weight at `[k,n]`, which is the weight at `[n,k]`. -/
theorem w_base (p : Fin 16384) (q k : Fin 4096) : idx_main_v0 (ridx_main_v1 (ix2 p q) k) = ix2 q k :=
  funext fun a => Fin.ext (by match a with | ⟨0, _⟩ => rfl | ⟨1, _⟩ => rfl)

/-- The first step of the low-rank path reads `x` at `[m,k]`. -/
theorem x_low (p : Fin 16384) (q : Fin 4096) (r : Fin 16) (k : Fin 4096) :
    lidx_main_v7 (lidx_main_v9 (ix2 p q) r) k = ix2 p k :=
  funext fun a => Fin.ext (by match a with | ⟨0, _⟩ => rfl | ⟨1, _⟩ => rfl)

/-- The first step of the low-rank path reads slot 0 of the first stacked factor at `[r,k]`. -/
theorem a_low (p : Fin 16384) (q : Fin 4096) (r : Fin 16) (k : Fin 4096) :
    idx_main_v2 (idx_main_v3 (idx_main_v6 (ridx_main_v7 (lidx_main_v9 (ix2 p q) r) k))) = ix3 (0 : Fin 8) r k :=
  funext fun a => Fin.ext (by
    have hr : r.val < 16 := r.isLt
    have hk : k.val < 4096 := k.isLt
    match a with
    | ⟨0, _⟩ => rfl
    | ⟨1, _⟩ => show (r.val * 4096 + k.val) / 4096 % 16 = r.val; omega
    | ⟨2, _⟩ => show (r.val * 4096 + k.val) % 4096 = k.val; omega)

/-- The second step of the low-rank path reads slot 0 of the second stacked factor at `[n,r]`. -/
theorem b_low (p : Fin 16384) (q : Fin 4096) (r : Fin 16) :
    idx_main_v4 (idx_main_v5 (idx_main_v8 (ridx_main_v9 (ix2 p q) r))) = ix3 (0 : Fin 8) q r :=
  funext fun a => Fin.ext (by
    have hr : r.val < 16 := r.isLt
    have hq : q.val < 4096 := q.isLt
    match a with
    | ⟨0, _⟩ => rfl
    | ⟨1, _⟩ => show (q.val * 16 + r.val) / 16 % 4096 = q.val; omega
    | ⟨2, _⟩ => show (q.val * 16 + r.val) % 16 = r.val; omega)

/-- The reference program's value is the reference's closed form, element by element. -/
theorem val_eq_ref (x0 : (⟨Cert.ReferenceIdeal.S16384x4096, .f32⟩ : BufTy).Contents (Elt Ideal))
    (x1 : (⟨Cert.ReferenceIdeal.S4096x4096, .f32⟩ : BufTy).Contents (Elt Ideal))
    (x2 : (⟨Cert.ReferenceIdeal.S8x16x4096, .f32⟩ : BufTy).Contents (Elt Ideal))
    (x3 : (⟨Cert.ReferenceIdeal.S8x4096x16, .f32⟩ : BufTy).Contents (Elt Ideal)) :
    Cert.ReferenceIdeal.Read.val_main_v12 (F := Ideal) x0 x1 x2 x3
      = fun i => Cert.RowLinear.ref x0 x1 x2 x3 (i 0) (i 1) := by
  funext i
  obtain ⟨p, q, rfl⟩ : ∃ (p : Fin 16384) (q : Fin 4096), i = ix2 p q := ⟨i 0, i 1, eq_ix2 i⟩
  show _ = Cert.RowLinear.ref x0 x1 x2 x3 p q
  rw [val_main_v12_apply, val_main_v1_apply, val_main_v11_apply, val_main_v10_apply, val_main_cst_apply,
    val_main_v9_apply]
  simp only [val_main_v7_apply, val_main_v8_apply, val_main_v6_apply, val_main_v5_apply, val_main_v4_apply,
    val_main_v3_apply, val_main_v2_apply, val_main_v0_apply, x_base, w_base, x_low, a_low, b_low,
    Ideal.addf_def, Ideal.mulf_def, Ideal.ofBits_def]
  rfl

end Cert.ReferenceIdeal.RefValue

end
-- ==== Proof.SpecLaw.lean ====
/-
  The kernel's form of the row-parallel linear layer equals the reference's form when every entry of the four
  arrays is a real number.

  Over the reals the law is distributivity and an exchange of two finite sums:
    ∑ₖ x[k]·(w[k] + c·∑ᵣ b[r]·a[r,k]) = ∑ₖ x[k]·w[k] + c·∑ᵣ (∑ₖ x[k]·a[r,k])·b[r],
  and a sum over `Fin 4096` is the sum over its lower half plus the sum over its upper half. Over the extended
  reals both forms are coercions of real numbers, because the coercion commutes with finite sums and products.
-/
import proofs.«128359_g11295763988856_week1_w4_63_30_alg».proof.Proof.Spec

noncomputable section

namespace Cert.RowLinear

open Idealize.ShloMosaic Idealize.ShloMosaic.ValueIdx

/-- The coercion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The law over the reals, over any finite index types: folding the rank-`ρ` update into the weight and
    contracting once equals contracting the base weight and the two-step low-rank path separately. -/
theorem real_fold {κ ρ : Type} [Fintype κ] [Fintype ρ] (c : ℝ) (x w : κ → ℝ) (a : ρ → κ → ℝ) (b : ρ → ℝ) :
    ∑ k, x k * (w k + c * ∑ r, b r * a r k)
      = (∑ k, x k * w k) + c * ∑ r, (∑ k, x k * a r k) * b r := by
  have h1 : ∀ k, x k * (w k + c * ∑ r, b r * a r k) = x k * w k + c * ∑ r, x k * a r k * b r := by
    intro k
    simp only [mul_add, Finset.mul_sum]
    congr 1
    refine Finset.sum_congr rfl fun r _ => ?_
    ring
  simp only [h1]
  rw [Finset.sum_add_distrib, ← Finset.mul_sum, Finset.sum_comm]
  congr 2
  refine Finset.sum_congr rfl fun r _ => ?_
  rw [Finset.sum_mul]

/-- A sum over the contracted axis is the sum over its lower half plus the sum over its upper half. -/
theorem sum_halves {M : Type} [AddCommMonoid M] (f : Fin 4096 → M) :
    ∑ k : Fin 2048, f (lo k) + ∑ k : Fin 2048, f (hi k) = ∑ k : Fin 4096, f k := by
  have h := Fin.sum_univ_add (M := M) (a := 2048) (b := 2048) f
  rw [h]
  rfl

/-- The scale is the real number `1`. -/
theorem one_eq : one = ((1 : ℝ) : EReal) := by
  have h : Ideal.ofBits .f32 0x3F800000#32 = 1 := by
    simp [Ideal.ofBits, Ideal.ieee, -EReal.coe_mul]; norm_num
  rw [one, h, EReal.coe_one]

/-- The kernel's form equals the reference's form on real arguments. -/
theorem kern_eq_ref (x : SX.Idx → EReal) (w : SW.Idx → EReal) (a : SA.Idx → EReal) (b : SB.Idx → EReal)
    (hx : AllReal x) (hw : AllReal w) (ha : AllReal a) (hb : AllReal b) (p : Fin 16384) (q : Fin 4096) :
    kern x w a b p q = ref x w a b p q := by
  choose xr hxr using hx
  choose wr hwr using hw
  choose ar har using ha
  choose br hbr using hb
  have hk : kern x w a b p q
      = ((∑ k : Fin 4096, xr (ix2 p k) * (wr (ix2 q k)
          + 1 * ∑ r : Fin 16, br (ix3 (0 : Fin 8) q r) * ar (ix3 (0 : Fin 8) r k)) : ℝ) : EReal) := by
    rw [← sum_halves (fun k : Fin 4096 => xr (ix2 p k) * (wr (ix2 q k)
          + 1 * ∑ r : Fin 16, br (ix3 (0 : Fin 8) q r) * ar (ix3 (0 : Fin 8) r k)))]
    simp only [kern, half, weff, aRow, bRow, one_eq, hxr, hwr, har, hbr, EReal.coe_add, EReal.coe_mul,
      coe_finset_sum]
  have hr : ref x w a b p q
      = (((∑ k : Fin 4096, xr (ix2 p k) * wr (ix2 q k))
          + 1 * ∑ r : Fin 16, (∑ k : Fin 4096, xr (ix2 p k) * ar (ix3 (0 : Fin 8) r k))
              * br (ix3 (0 : Fin 8) q r) : ℝ) : EReal) := by
    simp only [ref, aRow, bRow, one_eq, hxr, hwr, har, hbr, EReal.coe_add, EReal.coe_mul, coe_finset_sum]
  rw [hk, hr, real_fold]

end Cert.RowLinear

end
-- ==== Proof.FiniteInputs.lean ====
/-
  The precondition "every float input is finite" gives: every entry of the four arrays is a real number.

  The printed predicate compares `|x| < +∞` elementwise, reduces each array's comparisons by `and` over all axes,
  and conjoins the four results. If the result is 1 then each conjunct is 1, so each comparison is 1 at every
  index; and an extended real whose absolute value `max x (-x)` lies below `+∞` is neither `+∞` nor `-∞`.
-/
import proofs.«128359_g11295763988856_week1_w4_63_30_alg».proof.Proof.Spec
import proofs.«128359_g11295763988856_week1_w4_63_30_alg».proof.Pre_finite_inputs
import proofs.«128359_g11295763988856_week1_w4_63_30_alg».proof.Proof.Gen.Pre_finite_inputs
import Idealize.ShloMosaic.Lib.ReduceAll

noncomputable section

namespace Cert.RowLinear

open Idealize.ShloMosaic Idealize.ShloMosaic.ValueIdx

/-- The scalar shape has one index. -/
instance : Subsingleton Cert.Pre_finite_inputs.S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real whose absolute value lies below `+∞` is a real number. -/
theorem real_of_abs_lt (x : EReal)
    (h : Ideal.cmp .olt (max x (-x)) (Ideal.ofBits .f32 0x7F800000#32) = 1#1) : ∃ r : ℝ, x = (r : EReal) := by
  rw [inf_word] at h
  have hb : ∀ b : Bool, BitVec.ofBool b = 1#1 → b = true := by intro b; cases b <;> decide
  have hlt : max x (-x) < ⊤ := of_decide_eq_true (hb _ h)
  induction x using EReal.rec with
  | bot => simp at hlt
  | coe r => exact ⟨r, rfl⟩
  | top => simp at hlt

/-- One array: if the comparison `|x| < +∞` against the broadcast `+∞` is 1 at every index, every entry is real. -/
theorem allReal_of_cmp {S : Shape}
    (hb : Cert.Pre_finite_inputs.S_.BroadcastsInDim S (![] : Fin 0 → Fin S.rank)) (x : FVec Ideal S .f32)
    (h : ∀ i, cmpf .olt (Host.absf x)
      (broadcastInDim S ![] hb (constant (F := Ideal) Cert.Pre_finite_inputs.S_ .f32 0x7F800000#32)) i = 1#1) :
    AllReal (S := S) x :=
  fun i => real_of_abs_lt (x i) (h i)

/-- The precondition at the ideal instance: every entry of every argument is a real number. -/
theorem allReal_of_pre [Cert.Pre_finite_inputs.Facts]
    (x0 : FVec Ideal Cert.Pre_finite_inputs.S16384x4096 .f32) (x1 : FVec Ideal Cert.Pre_finite_inputs.S4096x4096 .f32)
    (x2 : FVec Ideal Cert.Pre_finite_inputs.S8x16x4096 .f32) (x3 : FVec Ideal Cert.Pre_finite_inputs.S8x4096x16 .f32)
    (h : Cert.Pre_finite_inputs.fn (F := Ideal) x0 x1 x2 x3 = fun _ => 1#1) :
    AllReal x0 ∧ AllReal x1 ∧ AllReal x2 ∧ AllReal x3 := by
  have h0 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨allReal_of_cmp _ x0 (Host.reduce_andi_all _ _ _ _ _ e0),
    allReal_of_cmp _ x1 (Host.reduce_andi_all _ _ _ _ _ e1),
    allReal_of_cmp _ x2 (Host.reduce_andi_all _ _ _ _ _ e2),
    allReal_of_cmp _ x3 (Host.reduce_andi_all _ _ _ _ _ e3)⟩

end Cert.RowLinear

end
-- ==== Proof.lean ====
/-
  The certificate of a row-parallel linear layer with a rank-16 update: a two-pass kernel against its plain reference,
  equal as extended reals on finite inputs.

  THE PROGRAMS. With `A0[r,k] = lora_A[0,r,k]` and `B0[n,r] = lora_B[0,n,r]` (slot 0 of the stacked factors), the
  reference computes `x·Wᵀ + 1·((x·A0ᵀ)·B0ᵀ)`. The kernel first folds the update into the weight, tile by tile —
  `wf = W + 1·(B0·A0)` — and then forms `x·wfᵀ` tile by tile, the contracted axis cut in two halves of 2048: the first
  half's product is stored into the result tile, the second half's added to it. At the ideal instance the narrowings to
  bf16 are the identity and every product is the exact sum.

  THE FRAMES. Each pass is a pipeline whose body is run on whole staging buffers; the folding pass has one case, the
  product pass two (store at the first half, accumulate at the second, the result tile's buffer kept in place between).
  The program's run is the host stretch followed by the two passes, each entered at the buffer contents the one before
  left (Proof/RunI.lean at the ideal instance, Proof/RunB.lean at the word-level one): it terminates, faults nowhere and
  leaves the four arguments as launched. The reference's frame is its run with the result dropped.

  THE VALUE. The folding pass's output is `W[n,k] + 1·∑ᵣ B0[n,r]·A0[r,k]` entry by entry, the product pass's output the
  two half-sums of `x[m,k]·wf[n,k]` added (Proof/KernelValue.lean): the specification's `kern`. The reference's result is the
  specification's `ref` (Proof/RefIsSpec.lean). The two agree when every entry of the four arguments is a real number
  (Proof/SpecLaw.lean: distributing the product over the folded weight's sum and exchanging the two finite sums), which is
  what the precondition says (Proof/FiniteInputs.lean). The ideal pass rewrote nothing, so `preserves` is `True`.
-/
import proofs.«128359_g11295763988856_week1_w4_63_30_alg».proof.Defs
import proofs.«128359_g11295763988856_week1_w4_63_30_alg».proof.Proof.Gen.Kernel
import proofs.«128359_g11295763988856_week1_w4_63_30_alg».proof.Proof.Gen.KernelIdeal
import proofs.«128359_g11295763988856_week1_w4_63_30_alg».proof.Proof.Gen.ReferenceIdeal
import proofs.«128359_g11295763988856_week1_w4_63_30_alg».proof.Proof.Gen.Pre_finite_inputs
import proofs.«128359_g11295763988856_week1_w4_63_30_alg».proof.Proof.Gen.ReferenceIdeal.Run
import proofs.«128359_g11295763988856_week1_w4_63_30_alg».proof.Proof.Gen.ReferenceIdeal.Read
import proofs.«128359_g11295763988856_week1_w4_63_30_alg».proof.Proof.RunB
import proofs.«128359_g11295763988856_week1_w4_63_30_alg».proof.Proof.RunI
import proofs.«128359_g11295763988856_week1_w4_63_30_alg».proof.Proof.KernelValue
import proofs.«128359_g11295763988856_week1_w4_63_30_alg».proof.Proof.RefIsSpec
import proofs.«128359_g11295763988856_week1_w4_63_30_alg».proof.Proof.SpecLaw
import proofs.«128359_g11295763988856_week1_w4_63_30_alg».proof.Proof.FiniteInputs

noncomputable section

namespace Cert.Proof

open Idealize.ShloMosaic Idealize.ShloMosaic.TcCoe Idealize.SL.Sem

/-- The word-level kernel runs to the end, faults nowhere and leaves its arguments as launched. -/
theorem frame_kernel : Cert.frame_Kernel := fun m ρ _ => Cert.Kernel.Fr.frame m ρ

/-- So does the idealized kernel. -/
theorem frame_kernelIdeal : Cert.frame_KernelIdeal := fun m ρ _ => Cert.KernelIdeal.Fr.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance, from memories agreeing on the arguments, the kernel's result array ends at the
    specification's `kern` of the arguments and the reference's at its `ref` of them; the arguments being finite, every
    entry is a real number and the two forms agree entry by entry. -/
theorem algebraic : Cert.algebraic_KernelIdeal_ReferenceIdeal := by
  intro m ρ m' ρ' hpre hagree
  refine ⟨fun c i => Cert.RowLinear.kern
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1), ?_, ?_⟩
  · exact (θ_run Cert.KernelIdeal.defs _ _).mono
      (fun r h c => ⟨(h c).1.trans (Cert.KernelIdeal.Val.kernel_result m ρ c), (h c).2⟩)
      (Cert.KernelIdeal.Fr.run_result m ρ)
  · refine (θ_run Cert.ReferenceIdeal.defs _ _).mono (fun r h c => ⟨?_, (h c).2⟩)
      (Cert.ReferenceIdeal.Value.run (F := Ideal) m' ρ')
    obtain ⟨hx, hw, ha, hb⟩ := Cert.RowLinear.allReal_of_pre _ _ _ _ (hpre c)
    rw [(h c).1, Cert.ReferenceIdeal.Read.val_main_v12_eq, Cert.ReferenceIdeal.RefValue.val_eq_ref,
      (hagree c).1, (hagree c).2.1, (hagree c).2.2.1, (hagree c).2.2.2]
    funext i
    exact (Cert.RowLinear.kern_eq_ref _ _ _ _ hx hw ha hb (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
